-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x128x3 : Shape := ⟨3, ![50000, 128, 3]⟩
abbrev S50000x3 : Shape := ⟨2, ![50000, 3]⟩
abbrev S20 : Shape := ⟨1, ![20]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x20 : Shape := ⟨2, ![128, 20]⟩
abbrev S2x400000 : Shape := ⟨2, ![2, 400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x128x3 : S_.BroadcastsInDim S50000x128x3 (![] : Fin 0 → Fin S50000x128x3.rank)
  reducesTo_S50000x128x3_S_d0_1_2 : S50000x128x3.ReducesTo [0, 1, 2] S_
  bcast_S_S50000x3 : S_.BroadcastsInDim S50000x3 (![] : Fin 0 → Fin S50000x3.rank)
  reducesTo_S50000x3_S_d0_1 : S50000x3.ReducesTo [0, 1] S_
  bcast_S_S20 : S_.BroadcastsInDim S20 (![] : Fin 0 → Fin S20.rank)
  reducesTo_S20_S_d0 : S20.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x20 : S_.BroadcastsInDim S128x20 (![] : Fin 0 → Fin S128x20.rank)
  reducesTo_S128x20_S_d0_1 : S128x20.ReducesTo [0, 1] S_

variable [Facts]

def fn_part3 {F : FTy → Type} [FloatOps F] (main_arg11 : FVec F S384x128 .f32) (main_arg12 : FVec F S384 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg11
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg7 : FVec F S384x128 .f32) (main_arg8 : FVec F S384 .f32) (main_arg9 : FVec F S128x20 .f32) (main_arg10 : FVec F S128 .f32) (main_arg11 : FVec F S384x128 .f32) (main_arg12 : FVec F S384 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x20 .f32 := Host.absf main_arg9
  let main_cst_16 : FVec F S_ .f32 := constant S_ .f32 0x7F800000#32
  let main_v45 : FVec F S128x20 .f32 := broadcastInDim S128x20 ![] bcast_S_S128x20 main_cst_16
  let main_v46 : IVec S128x20 1 := cmpf .olt main_v44 main_v45
  let main_c_17 : IVec S_ 1 := constantI S_ 1 1#1
  let main_v47 : IVec S_ 1 := (fun x v => Host.reduce IntOp.andi x v reducesTo_S128x20_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S20 .f32) (main_arg5 : FVec F S128x128 .f32) (main_arg6 : FVec F S128 .f32) (main_arg7 : FVec F S384x128 .f32) (main_arg8 : FVec F S384 .f32) (main_arg9 : FVec F S128x20 .f32) (main_arg10 : FVec F S128 .f32) (main_arg11 : FVec F S384x128 .f32) (main_arg12 : FVec F S384 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x128 .f32) (main_arg1 : FVec F S50000x128x3 .f32) (main_arg2 : FVec F S50000x3 .f32) (main_arg3 : FVec F S20 .f32) (main_arg4 : FVec F S20 .f32) (main_arg5 : FVec F S128x128 .f32) (main_arg6 : FVec F S128 .f32) (main_arg7 : FVec F S384x128 .f32) (main_arg8 : FVec F S384 .f32) (main_arg9 : FVec F S128x20 .f32) (main_arg10 : FVec F S128 .f32) (main_arg11 : FVec F S384x128 .f32) (main_arg12 : FVec F S384 .f32) (main_arg13 : IVec S2x400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128x3 .f32 := Host.absf main_arg1
  let main_cst_0 : FVec F S_ .f32 := constant S_ .f32 0x7F800000#32
  let main_v5 : FVec F S50000x128x3 .f32 := broadcastInDim S50000x128x3 ![] bcast_S_S50000x128x3 main_cst_0
  let main_v6 : IVec S50000x128x3 1 := cmpf .olt main_v4 main_v5
  let main_c_1 : IVec S_ 1 := constantI S_ 1 1#1
  let main_v7 : IVec S_ 1 := (fun x v => Host.reduce IntOp.andi x v reducesTo_S50000x128x3_S_d0_1_2 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_arg7 main_arg8 main_arg9 main_arg10 main_arg11 main_arg12 main_v13 main_v16
-- ==== Kernel.lean ====
abbrev S50000x128 : Shape := ⟨2, ![50000, 128]⟩
abbrev S50000x128x3 : Shape := ⟨3, ![50000, 128, 3]⟩
abbrev S50000x3 : Shape := ⟨2, ![50000, 3]⟩
abbrev S20 : Shape := ⟨1, ![20]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x20 : Shape := ⟨2, ![128, 20]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x3x128 : Shape := ⟨3, ![50000, 3, 128]⟩
abbrev S400000x3x128 : Shape := ⟨3, ![400000, 3, 128]⟩
abbrev S400000x3 : Shape := ⟨2, ![400000, 3]⟩
abbrev S128x384 : Shape := ⟨2, ![128, 384]⟩
abbrev S20x128 : Shape := ⟨2, ![20, 128]⟩
abbrev S1x128 : Shape := ⟨2, ![1, 128]⟩
abbrev S1x384 : Shape := ⟨2, ![1, 384]⟩
abbrev S1x20 : Shape := ⟨2, ![1, 20]⟩
abbrev S800x128 : Shape := ⟨2, ![800, 128]⟩
abbrev S800x3x128 : Shape := ⟨3, ![800, 3, 128]⟩
abbrev S800x3 : Shape := ⟨2, ![800, 3]⟩
abbrev S800 : Shape := ⟨1, ![800]⟩
abbrev S800x1 : Shape := ⟨2, ![800, 1]⟩
abbrev S800x20 : Shape := ⟨2, ![800, 20]⟩
abbrev S800x384 : Shape := ⟨2, ![800, 384]⟩
abbrev S800x1x128 : Shape := ⟨3, ![800, 1, 128]⟩
abbrev S800x3x1 : Shape := ⟨3, ![800, 3, 1]⟩

abbrev nBuf : Space → Nat
  | .hbm => 79
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S50000x128x3, .f32⟩
  | .hbm, ⟨2, _⟩ => ⟨S50000x3, .f32⟩
  | .hbm, ⟨3, _⟩ => ⟨S20, .f32⟩
  | .hbm, ⟨4, _⟩ => ⟨S20, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S128x20, .f32⟩
  | .hbm, ⟨10, _⟩ => ⟨S128, .f32⟩
  | .hbm, ⟨11, _⟩ => ⟨S384x128, .f32⟩
  | .hbm, ⟨12, _⟩ => ⟨S384, .f32⟩
  | .hbm, ⟨13, _⟩ => ⟨S2x400000, .i32⟩
  | .hbm, ⟨14, _⟩ => ⟨S1x400000, .i32⟩
  | .hbm, ⟨15, _⟩ => ⟨S400000, .i32⟩
  | .hbm, ⟨16, _⟩ => ⟨S1x400000, .i32⟩
  | .hbm, ⟨17, _⟩ => ⟨S400000, .i32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000x128, .f32⟩
  | .hbm, ⟨27, _⟩ => ⟨S50000x3x128, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x3x128, .f32⟩
  | .hbm, ⟨37, _⟩ => ⟨S_, .i32⟩
  | .hbm, ⟨38, _⟩ => ⟨S400000, .i32⟩
  | .hbm, ⟨39, _⟩ => ⟨S400000, .i1⟩
  | .hbm, ⟨40, _⟩ => ⟨S_, .i32⟩
  | .hbm, ⟨41, _⟩ => ⟨S400000, .i32⟩
  | .hbm, ⟨42, _⟩ => ⟨S400000, .i32⟩
  | .hbm, ⟨43, _⟩ => ⟨S400000, .i32⟩
  | .hbm, ⟨44, _⟩ => ⟨S400000x1, .i32⟩
  | .hbm, ⟨45, _⟩ => ⟨S400000x3, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x3, .f32⟩
  | .hbm, ⟨55, _⟩ => ⟨S400000x3, .f32⟩
  | .hbm, ⟨56, _⟩ => ⟨S128x128, .f32⟩
  | .hbm, ⟨57, _⟩ => ⟨S128x384, .f32⟩
  | .hbm, ⟨58, _⟩ => ⟨S20x128, .f32⟩
  | .hbm, ⟨59, _⟩ => ⟨S128x384, .f32⟩
  | .hbm, ⟨60, _⟩ => ⟨S1x128, .f32⟩
  | .hbm, ⟨61, _⟩ => ⟨S1x384, .f32⟩
  | .hbm, ⟨62, _⟩ => ⟨S1x128, .f32⟩
  | .hbm, ⟨63, _⟩ => ⟨S1x384, .f32⟩
  | .hbm, ⟨64, _⟩ => ⟨S1x20, .f32⟩
  | .hbm, ⟨65, _⟩ => ⟨S1x20, .f32⟩
  | .hbm, ⟨66, _⟩ => ⟨S400000x128, .f32⟩
  | .hbm, ⟨67, _⟩ => ⟨S400000x3x128, .f32⟩
  | .hbm, ⟨68, _⟩ => ⟨S_, .f32⟩
  | .hbm, ⟨69, _⟩ => ⟨S50000x128, .f32⟩
  | .hbm, ⟨70, _⟩ => ⟨S400000x1, .i32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x3x128, .f32⟩
  | .hbm, ⟨75, _⟩ => ⟨S400000x1, .i32⟩
  | .hbm, ⟨76, _⟩ => ⟨S50000x3x128, .f32⟩
  | .hbm, ⟨77, _⟩ => ⟨S50000x3x128, .f32⟩
  | .hbm, ⟨78, _⟩ => ⟨S50000x128x3, .f32⟩
  | .local _ .vmem, ⟨0, _⟩ => ⟨S800x128, .f32⟩
  | .local _ .vmem, ⟨1, _⟩ => ⟨S800x128, .f32⟩
  | .local _ .vmem, ⟨2, _⟩ => ⟨S800x3x128, .f32⟩
  | .local _ .vmem, ⟨3, _⟩ => ⟨S800x3x128, .f32⟩
  | .local _ .vmem, ⟨4, _⟩ => ⟨S800x3, .f32⟩
  | .local _ .vmem, ⟨5, _⟩ => ⟨S800x3, .f32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S1x384, .f32⟩
  | .local _ .vmem, ⟨10, _⟩ => ⟨S20x128, .f32⟩
  | .local _ .vmem, ⟨11, _⟩ => ⟨S1x128, .f32⟩
  | .local _ .vmem, ⟨12, _⟩ => ⟨S128x384, .f32⟩
  | .local _ .vmem, ⟨13, _⟩ => ⟨S1x384, .f32⟩
  | .local _ .vmem, ⟨14, _⟩ => ⟨S1x20, .f32⟩
  | .local _ .vmem, ⟨15, _⟩ => ⟨S1x20, .f32⟩
  | .local _ .vmem, ⟨16, _⟩ => ⟨S800x128, .f32⟩
  | .local _ .vmem, ⟨17, _⟩ => ⟨S800x128, .f32⟩
  | .local _ .vmem, ⟨18, _⟩ => ⟨S800x3x128, .f32⟩
  | .local _ .vmem, ⟨19, _⟩ => ⟨S800x3x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_cst : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S800x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S800x3x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  transposes_S50000x128x3_S50000x3x128_0_2_1 : S50000x128x3.Transposes [0, 2, 1] S50000x3x128
  transposes_S128x128_S128x128_1_0 : S128x128.Transposes [1, 0] S128x128
  transposes_S384x128_S128x384_1_0 : S384x128.Transposes [1, 0] S128x384
  transposes_S128x20_S20x128_1_0 : S128x20.Transposes [1, 0] S20x128
  shapeCasts_S128_S1x128 : S128.ShapeCasts S1x128
  shapeCasts_S384_S1x384 : S384.ShapeCasts S1x384
  shapeCasts_S20_S1x20 : S20.ShapeCasts S1x20
  inb_S800x3_S800x3_0_0 : ∀ a, (![0, 0] : Fin 2 → Nat) a + S800x3.size a ≤ S800x3.size a
  h_S800x3 : 0 < S800x3.numel
  shapeCasts_S800x3_S800x3 : S800x3.ShapeCasts S800x3
  reduces_S800x3_S800 : S800x3.Reduces [1] S800
  shapeCasts_S800_S800x1 : S800.ShapeCasts S800x1
  broadcasts_S800x1_S800x3 : S800x1.Broadcasts S800x3
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S800x1_S800x20 : S800x1.Broadcasts S800x20
  broadcasts_S1x20_S800x20 : S1x20.Broadcasts S800x20
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  shapeCasts_S20x128_S20x128 : S20x128.ShapeCasts S20x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S800x128 : S1x128.Broadcasts S800x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S800x384 : S1x384.Broadcasts S800x384
  inb_S800x128_S800x128_0_0 : ∀ a, (![0, 0] : Fin 2 → Nat) a + S800x128.size a ≤ S800x128.size a
  h_S800x128 : 0 < S800x128.numel
  shapeCasts_S800x128_S800x128 : S800x128.ShapeCasts S800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S800x384_o0_0_S800x128 : S800x384.Slices ![0, 0] S800x128
  slices_S800x384_o0_128_S800x128 : S800x384.Slices ![0, 128] S800x128
  slices_S800x384_o0_256_S800x128 : S800x384.Slices ![0, 256] S800x128
  inb_S800x3x128_S800x3x128_0_0_0 : ∀ a, (![0, 0, 0] : Fin 3 → Nat) a + S800x3x128.size a ≤ S800x3x128.size a
  h_S800x3x128 : 0 < S800x3x128.numel
  shapeCasts_S800x3x128_S800x3x128 : S800x3x128.ShapeCasts S800x3x128
  shapeCasts_S800x128_S800x1x128 : S800x128.ShapeCasts S800x1x128
  broadcasts_S800x1x128_S800x3x128 : S800x1x128.Broadcasts S800x3x128
  shapeCasts_S800x3_S800x3x1 : S800x3.ShapeCasts S800x3x1
  broadcasts_S800x3x1_S800x3x128 : S800x3x1.Broadcasts S800x3x128
  bcast_S_S50000x128 : S_.BroadcastsInDim S50000x128 (![] : Fin 0 → Fin S50000x128.rank)
  bcast_S_S50000x3x128 : S_.BroadcastsInDim S50000x3x128 (![] : Fin 0 → Fin S50000x3x128.rank)
  transposes_S50000x3x128_S50000x128x3_0_2_1 : S50000x3x128.Transposes [0, 2, 1] S50000x128x3
  gather_S50000x128_S400000x1_S400000x128_1_0_n_n_0_1_1128_wf : GatherDims.WF S50000x128 S400000x1 S400000x128 [1] [0] [] [0] [] 1 ![1, 128]
  gather_S50000x3x128_S400000x1_S400000x3x128_12_0_n_n_0_1_13128_wf : GatherDims.WF S50000x3x128 S400000x1 S400000x3x128 [1, 2] [0] [] [0] [] 1 ![1, 3, 128]
  gather_S50000x3_S400000x1_S400000x3_1_0_n_n_0_1_13_wf : GatherDims.WF S50000x3 S400000x1 S400000x3 [1] [0] [] [0] [] 1 ![1, 3]
  dot_S800x20_S20x128_S800x128_1_0_0_1_n_n_wf : DotDims.WF S800x20 S20x128 S800x128 [1] [0] [0] [1] [] []
  dot_S800x128_S128x384_S800x384_1_0_0_1_n_n_wf : DotDims.WF S800x128 S128x384 S800x384 [1] [0] [0] [1] [] []
  dot_S800x128_S128x128_S800x128_1_0_0_1_n_n_wf : DotDims.WF S800x128 S128x128 S800x128 [1] [0] [0] [1] [] []
  scatter_S50000x128_S400000x1_S400000x128_1_0_0_1_wf : ScatterDims.WF S50000x128 S400000x1 S400000x128 [1] [0] [0] 1
  scatter_S50000x3x128_S400000x1_S400000x3x128_12_0_0_1_wf : ScatterDims.WF S50000x3x128 S400000x1 S400000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x128.size a ≤ S400000x128.size a
  hwx0_0 : ∀ i : grid0.Coords, EltTy.bits .f32 = 32 ∨ (Rect.block (s := S400000x128) S800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x3x128.size a ≤ S400000x3x128.size a
  hwx0_1 : ∀ i : grid0.Coords, EltTy.bits .f32 = 32 ∨ (Rect.block (s := S400000x3x128) S800x3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x3.size a ≤ S400000x3.size a
  hwx0_2 : ∀ i : grid0.Coords, EltTy.bits .f32 = 32 ∨ (Rect.block (s := S400000x3) S800x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x128.size a ≤ S20x128.size a
  hwx0_7 : ∀ i : grid0.Coords, EltTy.bits .f32 = 32 ∨ (Rect.block (s := S20x128) S20x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .f32 = 32 ∨ (Rect.block (s := S128x384) S128x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x20.size a ≤ S1x20.size a
  hwx0_11 : ∀ i : grid0.Coords, EltTy.bits .f32 = 32 ∨ (Rect.block (s := S1x20) S1x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x20.size a ≤ S1x20.size a
  hwx0_12 : ∀ i : grid0.Coords, EltTy.bits .f32 = 32 ∨ (Rect.block (s := S1x20) S1x20.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S800x128.size a ≤ S400000x128.size a
  hwx0_13 : ∀ i : grid0.Coords, EltTy.bits .f32 = 32 ∨ (Rect.block (s := S400000x128) S800x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S800x3x128.size a ≤ S400000x3x128.size a
  hwx0_14 : ∀ i : grid0.Coords, EltTy.bits .f32 = 32 ∨ (Rect.block (s := S400000x3x128) S800x3x128.size (cc0_transform_14 i) (hinb0_14 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x3x128_S400000x1_S400000x3x128_12_0_n_n_0_1_13128 : GatherDims S50000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S50000x3x128_S400000x1_S400000x3x128_12_0_n_n_0_1_13128_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def dot_S800x20_S20x128_S800x128_1_0_0_1_n_n : DotDims S800x20 S20x128 S800x128 where
  lhsContracting := [1]
  rhsContracting := [0]
  lhsNonContracting := [0]
  rhsNonContracting := [1]
  lhsBatch := []
  rhsBatch := []
  wf := dot_S800x20_S20x128_S800x128_1_0_0_1_n_n_wf
def dot_S800x128_S128x384_S800x384_1_0_0_1_n_n : DotDims S800x128 S128x384 S800x384 where
  lhsContracting := [1]
  rhsContracting := [0]
  lhsNonContracting := [0]
  rhsNonContracting := [1]
  lhsBatch := []
  rhsBatch := []
  wf := dot_S800x128_S128x384_S800x384_1_0_0_1_n_n_wf
def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x3x128_S400000x1_S400000x3x128_12_0_0_1 : ScatterDims S50000x3x128 S400000x1 S400000x3x128 where
  updateWindowDims := [1, 2]
  insertedWindowDims := [0]
  scatterDimsToOperandDims := [0]
  indexVectorDim := 1
  wf := scatter_S50000x3x128_S400000x1_S400000x3x128_12_0_0_1_wf

abbrev win0_0 : Pipeline.Window sig grid0 :=
  Pipeline.Window.ofSpec (Memref.whole main_v10) S800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S800x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S800x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S20x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S1x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43) S1x20.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44_0) S800x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v44_1) S800x3x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x128x3 : Shape := ⟨3, ![50000, 128, 3]⟩
abbrev S50000x3 : Shape := ⟨2, ![50000, 3]⟩
abbrev S20 : Shape := ⟨1, ![20]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x20 : Shape := ⟨2, ![128, 20]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S1x20 : Shape := ⟨2, ![1, 20]⟩
abbrev S400000x20 : Shape := ⟨2, ![400000, 20]⟩
abbrev S20x128 : Shape := ⟨2, ![20, 128]⟩
abbrev S400000x128 : Shape := ⟨2, ![400000, 128]⟩
abbrev S1x128 : Shape := ⟨2, ![1, 128]⟩
abbrev S128x384 : Shape := ⟨2, ![128, 384]⟩
abbrev S400000x384 : Shape := ⟨2, ![400000, 384]⟩
abbrev S1x384 : Shape := ⟨2, ![1, 384]⟩
abbrev S400000x128x1 : Shape := ⟨3, ![400000, 128, 1]⟩
abbrev S400000x128x3 : Shape := ⟨3, ![400000, 128, 3]⟩
abbrev S400000x1x3 : Shape := ⟨3, ![400000, 1, 3]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S50000x128x3, .f32⟩
  | 2 => ⟨S50000x3, .f32⟩
  | 3 => ⟨S20, .f32⟩
  | 4 => ⟨S20, .f32⟩
  | 5 => ⟨S128x128, .f32⟩
  | 6 => ⟨S128, .f32⟩
  | 7 => ⟨S384x128, .f32⟩
  | 8 => ⟨S384, .f32⟩
  | 9 => ⟨S128x20, .f32⟩
  | 10 => ⟨S128, .f32⟩
  | 11 => ⟨S384x128, .f32⟩
  | 12 => ⟨S384, .f32⟩
  | 13 => ⟨S2x400000, .i32⟩
  | 14 => ⟨S1x400000, .i32⟩
  | 15 => ⟨S400000, .i32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x3, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x3, .f32⟩
  | 36 => ⟨S400000x3, .f32⟩
  | 37 => ⟨S400000x3, .f32⟩
  | 38 => ⟨S_, .f32⟩
  | 39 => ⟨S400000, .f32⟩
  | 40 => ⟨S400000, .f32⟩
  | 41 => ⟨S_, .f32⟩
  | 42 => ⟨S400000, .f32⟩
  | 43 => ⟨S400000, .f32⟩
  | 44 => ⟨S400000x1, .f32⟩
  | 45 => ⟨S400000x3, .f32⟩
  | 46 => ⟨S400000x3, .f32⟩
  | 47 => ⟨S20, .f32⟩
  | 48 => ⟨S20, .f32⟩
  | 49 => ⟨S400000x1, .f32⟩
  | 50 => ⟨S1x20, .f32⟩
  | 51 => ⟨S400000x20, .f32⟩
  | 52 => ⟨S400000x20, .f32⟩
  | 53 => ⟨S400000x20, .f32⟩
  | 54 => ⟨S400000x20, .f32⟩
  | 55 => ⟨S1x20, .f32⟩
  | 56 => ⟨S400000x20, .f32⟩
  | 57 => ⟨S400000x20, .f32⟩
  | 58 => ⟨S400000x20, .f32⟩
  | 59 => ⟨S_, .f32⟩
  | 60 => ⟨S400000, .f32⟩
  | 61 => ⟨S400000, .f32⟩
  | 62 => ⟨S_, .f32⟩
  | 63 => ⟨S400000, .f32⟩
  | 64 => ⟨S400000, .i1⟩
  | 65 => ⟨S_, .f32⟩
  | 66 => ⟨S400000, .f32⟩
  | 67 => ⟨S400000, .f32⟩
  | 68 => ⟨S400000, .f32⟩
  | 69 => ⟨S_, .f32⟩
  | 70 => ⟨S400000, .f32⟩
  | 71 => ⟨S400000, .f32⟩
  | 72 => ⟨S_, .f32⟩
  | 73 => ⟨S400000, .f32⟩
  | 74 => ⟨S400000, .f32⟩
  | 75 => ⟨S_, .f32⟩
  | 76 => ⟨S_, .f32⟩
  | 77 => ⟨S400000, .f32⟩
  | 78 => ⟨S400000, .f32⟩
  | 79 => ⟨S400000x1, .f32⟩
  | 80 => ⟨S400000x20, .f32⟩
  | 81 => ⟨S400000x20, .f32⟩
  | 82 => ⟨S20x128, .f32⟩
  | 83 => ⟨S400000x128, .f32⟩
  | 84 => ⟨S1x128, .f32⟩
  | 85 => ⟨S400000x128, .f32⟩
  | 86 => ⟨S400000x128, .f32⟩
  | 87 => ⟨S400000x128, .f32⟩
  | 88 => ⟨S400000x128, .f32⟩
  | 89 => ⟨S_, .f32⟩
  | 90 => ⟨S400000x128, .f32⟩
  | 91 => ⟨S400000x128, .f32⟩
  | 92 => ⟨S_, .f32⟩
  | 93 => ⟨S400000x128, .f32⟩
  | 94 => ⟨S400000x128, .f32⟩
  | 95 => ⟨S400000x128, .f32⟩
  | 96 => ⟨S128x384, .f32⟩
  | 97 => ⟨S400000x384, .f32⟩
  | 98 => ⟨S1x384, .f32⟩
  | 99 => ⟨S400000x384, .f32⟩
  | 100 => ⟨S400000x384, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S128x128, .f32⟩
  | 111 => ⟨S400000x128, .f32⟩
  | 112 => ⟨S1x128, .f32⟩
  | 113 => ⟨S400000x128, .f32⟩
  | 114 => ⟨S400000x128, .f32⟩
  | 115 => ⟨S400000x128, .f32⟩
  | 116 => ⟨S400000x128, .f32⟩
  | 117 => ⟨S_, .f32⟩
  | 118 => ⟨S400000x128, .f32⟩
  | 119 => ⟨S400000x128, .f32⟩
  | 120 => ⟨S_, .f32⟩
  | 121 => ⟨S400000x128, .f32⟩
  | 122 => ⟨S400000x128, .f32⟩
  | 123 => ⟨S400000x128, .f32⟩
  | 124 => ⟨S128x384, .f32⟩
  | 125 => ⟨S400000x384, .f32⟩
  | 126 => ⟨S1x384, .f32⟩
  | 127 => ⟨S400000x384, .f32⟩
  | _ => ⟨S50000x128, .f32⟩

abbrev hbmTy0_1 (i : Nat) : BufTy := match i % 128 with
  | 0 => ⟨S400000x384, .f32⟩
  | 1 => ⟨S400000x384, .f32⟩
  | 2 => ⟨S400000x128, .f32⟩
  | 3 => ⟨S400000x128, .f32⟩
  | 4 => ⟨S400000x128, .f32⟩
  | 5 => ⟨S400000x128x1, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128x3, .f32⟩
  | 15 => ⟨S400000x128x3, .f32⟩
  | 16 => ⟨S400000x128x3, .f32⟩
  | 17 => ⟨S400000x128x1, .f32⟩
  | 18 => ⟨S400000x1x3, .f32⟩
  | 19 => ⟨S400000x128x3, .f32⟩
  | 20 => ⟨S400000x128x3, .f32⟩
  | 21 => ⟨S400000x128x3, .f32⟩
  | 22 => ⟨S400000x128x3, .f32⟩
  | 23 => ⟨S_, .f32⟩
  | 24 => ⟨S50000x128, .f32⟩
  | 25 => ⟨S400000x1, .i32⟩
  | 26 => ⟨S50000x128, .f32⟩
  | 27 => ⟨S50000x128, .f32⟩
  | 28 => ⟨S_, .f32⟩
  | 29 => ⟨S50000x128x3, .f32⟩
  | 30 => ⟨S400000x1, .i32⟩
  | 31 => ⟨S50000x128x3, .f32⟩
  | 32 => ⟨S50000x128x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_call1_v0 : Ref sig .tc := ⟨.hbm, 76, rfl⟩
abbrev main_call1_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_9 : Ref sig .tc := ⟨.hbm, 101, rfl⟩
abbrev main_v63 : Ref sig .tc := ⟨.hbm, 102, rfl⟩
abbrev main_v64 : Ref sig .tc := ⟨.hbm, 103, rfl⟩
abbrev main_c_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call3_v0 : Ref sig .tc := ⟨.hbm, 115, rfl⟩
abbrev main_call3_v1 : Ref sig .tc := ⟨.hbm, 116, rfl⟩
abbrev main_call3_cst : Ref sig .tc := ⟨.hbm, 117, rfl⟩
abbrev main_call3_v2 : Ref sig .tc := ⟨.hbm, 118, rfl⟩
abbrev main_call3_v3 : Ref sig .tc := ⟨.hbm, 119, rfl⟩
abbrev main_call3_cst_0 : Ref sig .tc := ⟨.hbm, 120, rfl⟩
abbrev main_call3_v4 : Ref sig .tc := ⟨.hbm, 121, rfl⟩
abbrev main_call3_v5 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_11 : Ref sig .tc := ⟨.hbm, 134, rfl⟩
abbrev main_v86 : Ref sig .tc := ⟨.hbm, 135, rfl⟩
abbrev main_v87 : Ref sig .tc := ⟨.hbm, 136, rfl⟩
abbrev main_c_12 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_13 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_14 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S400000x1_S400000x3_0_1 : S400000x1.BroadcastsInDim S400000x3 (![0, 1] : Fin 2 → Fin S400000x3.rank)
  bcast_S20_S1x20_1 : S20.BroadcastsInDim S1x20 (![1] : Fin 1 → Fin S1x20.rank)
  bcast_S400000x1_S400000x20_0_1 : S400000x1.BroadcastsInDim S400000x20 (![0, 1] : Fin 2 → Fin S400000x20.rank)
  bcast_S1x20_S400000x20_0_1 : S1x20.BroadcastsInDim S400000x20 (![0, 1] : Fin 2 → Fin S400000x20.rank)
  transposes_S128x20_S20x128_1_0 : S128x20.Transposes [1, 0] S20x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  transposes_S384x128_S128x384_1_0 : S384x128.Transposes [1, 0] S128x384
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  transposes_S128x128_S128x128_1_0 : S128x128.Transposes [1, 0] S128x128
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S400000x128_S400000x128x1_0_1 : S400000x128.BroadcastsInDim S400000x128x1 (![0, 1] : Fin 2 → Fin S400000x128x1.rank)
  bcast_S400000x128x1_S400000x128x3_0_1_2 : S400000x128x1.BroadcastsInDim S400000x128x3 (![0, 1, 2] : Fin 3 → Fin S400000x128x3.rank)
  bcast_S400000x3_S400000x1x3_0_2 : S400000x3.BroadcastsInDim S400000x1x3 (![0, 2] : Fin 2 → Fin S400000x1x3.rank)
  bcast_S400000x1x3_S400000x128x3_0_1_2 : S400000x1x3.BroadcastsInDim S400000x128x3 (![0, 1, 2] : Fin 3 → Fin S400000x128x3.rank)
  bcast_S_S50000x128 : S_.BroadcastsInDim S50000x128 (![] : Fin 0 → Fin S50000x128.rank)
  bcast_S_S50000x128x3 : S_.BroadcastsInDim S50000x128x3 (![] : Fin 0 → Fin S50000x128x3.rank)
  gather_S50000x3_S400000x1_S400000x3_1_0_n_n_0_1_13_wf : GatherDims.WF S50000x3 S400000x1 S400000x3 [1] [0] [] [0] [] 1 ![1, 3]
  dot_S400000x20_S20x128_S400000x128_1_0_0_1_n_n_wf : DotDims.WF S400000x20 S20x128 S400000x128 [1] [0] [0] [1] [] []
  dot_S400000x128_S128x384_S400000x384_1_0_0_1_n_n_wf : DotDims.WF S400000x128 S128x384 S400000x384 [1] [0] [0] [1] [] []
  gather_S50000x128_S400000x1_S400000x128_1_0_n_n_0_1_1128_wf : GatherDims.WF S50000x128 S400000x1 S400000x128 [1] [0] [] [0] [] 1 ![1, 128]
  dot_S400000x128_S128x128_S400000x128_1_0_0_1_n_n_wf : DotDims.WF S400000x128 S128x128 S400000x128 [1] [0] [0] [1] [] []
  gather_S50000x128x3_S400000x1_S400000x128x3_12_0_n_n_0_1_11283_wf : GatherDims.WF S50000x128x3 S400000x1 S400000x128x3 [1, 2] [0] [] [0] [] 1 ![1, 128, 3]
  scatter_S50000x128_S400000x1_S400000x128_1_0_0_1_wf : ScatterDims.WF S50000x128 S400000x1 S400000x128 [1] [0] [0] 1
  scatter_S50000x128x3_S400000x1_S400000x128x3_12_0_0_1_wf : ScatterDims.WF S50000x128x3 S400000x1 S400000x128x3 [1, 2] [0] [0] 1

variable [Facts₀]

def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def dot_S400000x20_S20x128_S400000x128_1_0_0_1_n_n : DotDims S400000x20 S20x128 S400000x128 where
  lhsContracting := [1]
  rhsContracting := [0]
  lhsNonContracting := [0]
  rhsNonContracting := [1]
  lhsBatch := []
  rhsBatch := []
  wf := dot_S400000x20_S20x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x128x3_S400000x1_S400000x128x3_12_0_n_n_0_1_11283 : GatherDims S50000x128x3 S400000x1 S400000x128x3 where
  offsetDims := [1, 2]
  collapsedSliceDims := [0]
  operandBatchingDims := []
  startIndicesBatchingDims := []
  startIndexMap := [0]
  indexVectorDim := 1
  sliceSizes := ![1, 128, 3]
  wf := gather_S50000x128x3_S400000x1_S400000x128x3_12_0_n_n_0_1_11283_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x128x3_S400000x1_S400000x128x3_12_0_0_1 : ScatterDims S50000x128x3 S400000x1 S400000x128x3 where
  updateWindowDims := [1, 2]
  insertedWindowDims := [0]
  scatterDimsToOperandDims := [0]
  indexVectorDim := 1
  wf := scatter_S50000x128x3_S400000x1_S400000x128x3_12_0_0_1_wf

class Facts : Prop extends Facts₀ where

variable [Facts]
-- ==== Proof.KernelRun.lean ====
/-
  The kernel program's run (at any float instance) with its two results named: every weakly fair execution terminates, the two result
  buffers end at what the host operations after the region compute from the region's output arrays, and the fourteen
  argument arrays end unchanged. This is the frame run's post read at the two result buffers (neither is an array of
  the region, so each holds what the lines after the region leave there).
-/
import proofs.«163071_j16887811407945_1_alg».proof.Proof.FrameKernelIdealP

noncomputable section

namespace Cert.KernelRun

open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (ρ : Dev nD → PrngReg)

/-- The run, with the results at the tail's values and the arguments unchanged. -/
theorem run_results : θ_run defs (onTc (τ := τ) (main (F := F))) ⟨m, fun _ => 0, ρ⟩ (fun r => ∀ c : Dev nD,
      r.2.mem ((c.tc : Thread nD τ).loc main_v48) = Pipeline.afterTail₀ cfgs (dats m) 0 (V0 m) [hostOps1] c main_v48
      ∧ r.2.mem ((c.tc : Thread nD τ).loc main_v53) = Pipeline.afterTail₀ cfgs (dats m) 0 (V0 m) [hostOps1] c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v48 (Pipeline.mem_restRefs_of main_v48 (by decide) (by decide)),
      (h c).2 main_v53 (Pipeline.mem_restRefs_of main_v53 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩) (run_main m ρ)

end Cert.KernelRun

end
-- ==== Proof.Spec.lean ====
/-
  The message of one edge of an equivariant message-passing layer, on the extended reals.

  An edge carries a displacement `r` (three coordinates) and the scalar features `srow` (128 numbers) and vector
  features `vrow` (3 × 128 numbers) of its source node. With `d = max (√(Σ r_c²)) ε` the clamped length:

  * the radial features are `exp (−|w_k| · (d − μ_k)²) · env d`, twenty Gaussians of centres `μ` and widths `w` under the
    cosine envelope `env d = ½ (cos (π · d/8) + 1)` for `d/8 < 1` and `0` beyond;
  * a two-layer perceptron `mlp` (a sum-product with a matrix plus a bias, the activation `x · logistic x`, a second
    sum-product plus bias) is applied to the radial features (the filter) and to `srow`; their entrywise product is the
    `gate`, 384 numbers read as three groups of 128;
  * the scalar message is the first group; the vector message at coordinate `c` and channel `h` is the second group's
    entry times `vrow c h` plus the third group's entry times the unit displacement `r_c / d`.

  The float literals are kept as the words the two programs print; nothing here evaluates them.
-/
import Idealize.ShloMosaic.PureOps.Ideal.Laws
import Idealize.ShloMosaic.Lib.ValueIdx

noncomputable section

open scoped BigOperators

namespace Cert.Painn

open Idealize.ShloMosaic

/-- The weights of the layer, each matrix indexed (input, output): the Gaussian centres and widths, the filter
    perceptron `(w1, b1, w2, b2)` from 20 radial features to 384 numbers, and the scalar perceptron
    `(p1, pb1, p2, pb2)` from 128 features to 384 numbers. -/
structure Params where
  cen : Fin 20 → EReal
  wid : Fin 20 → EReal
  w1 : Fin 20 → Fin 128 → EReal
  b1 : Fin 128 → EReal
  w2 : Fin 128 → Fin 384 → EReal
  b2 : Fin 384 → EReal
  p1 : Fin 128 → Fin 128 → EReal
  pb1 : Fin 128 → EReal
  p2 : Fin 128 → Fin 384 → EReal
  pb2 : Fin 384 → EReal

/-- The clamped length of a displacement: the square root of the sum of the squared coordinates, at least the
    literal the programs print for 1e-6. -/
def dist (r : Fin 3 → EReal) : EReal :=
  max (Ideal.sqrt (∑ c : Fin 3, r c * r c)) (Ideal.ofBits .f32 0x358637BD#32)

/-- The length over the cutoff 8. -/
def scaled (d : EReal) : EReal := Ideal.div d (Ideal.ofBits .f32 0x41000000#32)

/-- The cosine envelope: `½ · (cos (π · d/8) + 1)` while `d/8 < 1`, else `0`. -/
def envelope (d : EReal) : EReal :=
  Scalar.select (Ideal.cmp .olt (scaled d) (Ideal.ofBits .f32 0x3F800000#32))
    (Ideal.ofBits .f32 0x3F000000#32
      * (Ideal.cos (Ideal.ofBits .f32 0x40490FDB#32 * scaled d) + Ideal.ofBits .f32 0x3F800000#32))
    (Ideal.ofBits .f32 0x00000000#32)

/-- Radial feature `k`: a Gaussian of the length around centre `k`, under the envelope. -/
def radial (P : Params) (d : EReal) (k : Fin 20) : EReal :=
  Ideal.exp (-(max (P.wid k) (-(P.wid k))) * ((d - P.cen k) * (d - P.cen k))) * envelope d

/-- The activation `x · logistic x`. -/
def silu (x : EReal) : EReal := x * Ideal.logistic x

/-- A two-layer perceptron read at output `q`. -/
def mlp {K H Q : Nat} (x : Fin K → EReal) (A : Fin K → Fin H → EReal) (a : Fin H → EReal)
    (B : Fin H → Fin Q → EReal) (b : Fin Q → EReal) (q : Fin Q) : EReal :=
  (∑ j : Fin H, silu ((∑ k : Fin K, x k * A k j) + a j) * B j q) + b q

/-- The gate: the scalar perceptron of the source features times the filter perceptron of the radial features. -/
def gate (P : Params) (r : Fin 3 → EReal) (srow : Fin 128 → EReal) (q : Fin 384) : EReal :=
  mlp srow P.p1 P.pb1 P.p2 P.pb2 q * mlp (radial P (dist r)) P.w1 P.b1 P.w2 P.b2 q

/-- Channel `h` in the first, second and third group of 128 of the gate's 384 outputs. -/
def g0 (h : Fin 128) : Fin 384 := ⟨h.val, by have := h.isLt; omega⟩
def g1 (h : Fin 128) : Fin 384 := ⟨h.val + 128, by have := h.isLt; omega⟩
def g2 (h : Fin 128) : Fin 384 := ⟨h.val + 256, by have := h.isLt; omega⟩

/-- The scalar message of the edge at channel `h`. -/
def dS (P : Params) (r : Fin 3 → EReal) (srow : Fin 128 → EReal) (h : Fin 128) : EReal :=
  gate P r srow (g0 h)

/-- The vector message of the edge at coordinate `c` and channel `h`. -/
def mv (P : Params) (r : Fin 3 → EReal) (srow : Fin 128 → EReal) (vrow : Fin 3 → Fin 128 → EReal)
    (c : Fin 3) (h : Fin 128) : EReal :=
  gate P r srow (g1 h) * vrow c h + gate P r srow (g2 h) * Ideal.div (r c) (dist r)

/-- The layer's weights read off the ten weight arrays as the programs receive them: centres and widths are vectors of
    20; each matrix arrives as (output, input) and is read transposed; each bias is a vector. -/
def argParams (a3 a4 : (⟨1, ![20]⟩ : Shape).Idx → EReal) (a5 : (⟨2, ![128, 128]⟩ : Shape).Idx → EReal)
    (a6 : (⟨1, ![128]⟩ : Shape).Idx → EReal) (a7 : (⟨2, ![384, 128]⟩ : Shape).Idx → EReal)
    (a8 : (⟨1, ![384]⟩ : Shape).Idx → EReal) (a9 : (⟨2, ![128, 20]⟩ : Shape).Idx → EReal)
    (a10 : (⟨1, ![128]⟩ : Shape).Idx → EReal) (a11 : (⟨2, ![384, 128]⟩ : Shape).Idx → EReal)
    (a12 : (⟨1, ![384]⟩ : Shape).Idx → EReal) : Params where
  cen k := a3 (ValueIdx.ix1 k)
  wid k := a4 (ValueIdx.ix1 k)
  w1 k j := a9 (ValueIdx.ix2 j k)
  b1 j := a10 (ValueIdx.ix1 j)
  w2 j q := a11 (ValueIdx.ix2 q j)
  b2 q := a12 (ValueIdx.ix1 q)
  p1 k j := a5 (ValueIdx.ix2 j k)
  pb1 j := a6 (ValueIdx.ix1 j)
  p2 j q := a7 (ValueIdx.ix2 q j)
  pb2 q := a8 (ValueIdx.ix1 q)

end Cert.Painn

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«163071_j16887811407945_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.KernelBody.lean ====
/-
  The kernel body's two stored values, read at an entry, are the edge messages of the specification.

  The body works on a block of 800 edges. Row `p` of the block carries the displacement `x2 (p, ·)`, the source
  features `x0 (p, ·)` and `x1 (p, ·, ·)`; the weights arrive whole. Each stage is read at explicit coordinates:
  the clamped length (a row sum of squares, a square root, a maximum), the unit displacement, the radial features,
  the two perceptrons (each matrix product into a zero accumulator plus a one-row bias is a textbook sum plus the
  bias; a change of float format is the identity), their product, and the two stores: the first group of 128 gate
  entries, and the second and third groups combined with the vector features and the unit displacement.
-/
import proofs.«163071_j16887811407945_1_alg».proof.Proof.Gen.KernelIdeal.Skeleton
import proofs.«163071_j16887811407945_1_alg».proof.Proof.Spec
import proofs.«163071_j16887811407945_1_alg».proof.Proof.LibAffineBlock
import proofs.«163071_j16887811407945_1_alg».proof.Proof.LibColumnForms
import proofs.«163071_j16887811407945_1_alg».proof.Proof.LibRowScalar
import Idealize.ShloMosaic.Lib.ValueLayout
import Idealize.ShloMosaic.Lib.Pipeline.Value

noncomputable section

open scoped BigOperators

namespace Cert.KernelBody

open Idealize.ShloMosaic Idealize.ShloMosaic.ValueIdx Cert.KernelIdeal Cert.KernelIdeal.Gen

variable [Cert.KernelIdeal.Facts]

/-! ## Pointwise operations at an index (each by definition) -/

theorem exp_apply {s : Shape} {φ : FTy} (a : FVec Ideal s φ) (i : s.Idx) : exp a i = Ideal.exp (a i) := rfl
theorem cos_apply {s : Shape} {φ : FTy} (a : FVec Ideal s φ) (i : s.Idx) : cos a i = Ideal.cos (a i) := rfl
theorem absf_apply {s : Shape} {φ : FTy} (a : FVec Ideal s φ) (i : s.Idx) : absf a i = max (a i) (-(a i)) := rfl

/-- The sum along the rows started from the zero word, read at row r, with the accumulator's side condition typed as
    the printed program carries it (an equation between words). -/
theorem rowSum_printed {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) :=
  Cert.Lib.ColumnForms.rowSum_apply src h hφ hacc r

/-! ## The clamped length and the unit displacement -/

/-- The clamped length of row `p`'s displacement. -/
theorem length_apply (x2 : Vec Ideal S800x3 .f32) (p : Fin 800) (z : Fin 1) :
    k0_pay4 (F := Ideal) x2 (ix2 p z) = Cert.Painn.dist (fun c => x2 (ix2 p c)) := by
  unfold k0_pay4 k0_pay3
  try dsimp only
  rw [shapeCast_self]
  simp only [maximumf_apply, Cert.Lib.ColumnForms.sqrt_apply, broadcast_apply]
  rw [Cert.Lib.ColumnForms.shapeCast_a_a1_apply, rowSum_printed]
  rfl

/-- The unit displacement of row `p` at coordinate `c`. -/
theorem unit_apply (x2 : Vec Ideal S800x3 .f32) (p : Fin 800) (c : Fin 3) :
    k0_pay5 (F := Ideal) x2 (ix2 p c)
      = Ideal.div (x2 (ix2 p c)) (Cert.Painn.dist (fun c => x2 (ix2 p c))) := by
  unfold k0_pay5 k0_pay3
  try dsimp only
  rw [shapeCast_self]
  simp only [divf_apply]
  rw [Cert.Lib.ColumnForms.broadcastTo_a1_ab_apply, length_apply]

/-! ## The weights as the body sees them -/

/-- The layer's weights read off the ten weight blocks: each matrix arrives (input, output), each bias and the
    centres and widths as one row. -/
def blockParams (x3 : Vec Ideal S128x128 .f32) (x4 : Vec Ideal S1x128 .f32) (x5 : Vec Ideal S128x384 .f32)
    (x6 : Vec Ideal S1x384 .f32) (x7 : Vec Ideal S20x128 .f32) (x8 : Vec Ideal S1x128 .f32)
    (x9 : Vec Ideal S128x384 .f32) (x10 : Vec Ideal S1x384 .f32) (x11 x12 : Vec Ideal S1x20 .f32) :
    Cert.Painn.Params where
  cen k := x11 (ix2 (0 : Fin 1) k)
  wid k := x12 (ix2 (0 : Fin 1) k)
  w1 k j := x7 (ix2 k j)
  b1 j := x8 (ix2 (0 : Fin 1) j)
  w2 j q := x9 (ix2 j q)
  b2 q := x10 (ix2 (0 : Fin 1) q)
  p1 k j := x3 (ix2 k j)
  pb1 j := x4 (ix2 (0 : Fin 1) j)
  p2 j q := x5 (ix2 j q)
  pb2 q := x6 (ix2 (0 : Fin 1) q)

/-! ## The radial features -/

/-- Radial feature `k` of row `p`: the body multiplies `0 − |w|` by the offset twice, the specification `−|w|` by the
    squared offset; multiplication on the extended reals is associative and `0 − a = −a`. -/
theorem radial_apply (x2 : Vec Ideal S800x3 .f32) (x11 x12 : Vec Ideal S1x20 .f32) (P : Cert.Painn.Params)
    (hc : ∀ k, P.cen k = x11 (ix2 (0 : Fin 1) k)) (hw : ∀ k, P.wid k = x12 (ix2 (0 : Fin 1) k))
    (p : Fin 800) (k : Fin 20) :
    k0_pay6 (F := Ideal) x2 x11 x12 (ix2 p k)
      = Cert.Painn.radial P (Cert.Painn.dist (fun c => x2 (ix2 p c))) k := by
  unfold k0_pay6
  try dsimp only
  rw [shapeCast_self, shapeCast_self]
  simp only [truncf_apply, mulf_apply, exp_apply, subf_apply, Cert.Lib.ColumnForms.broadcastTo_a1_ab_apply,
    broadcastTo_1b_ab_apply, length_apply, broadcast_apply, absf_apply, select_apply, cmpf_apply, divf_apply,
    addf_apply, cos_apply]
  unfold Cert.Painn.radial Cert.Painn.envelope Cert.Painn.scaled
  rw [hc k, hw k]
  have h0 : (Ideal.ofBits .f32 0x00000000#32 : EReal) = 0 := Ideal.ofBits_zero_f32
  have h0' : (FloatOps.ofBits (F := Ideal) .f32 0x00000000#32 : EReal) = 0 := h0
  rw [h0', h0, zero_sub, mul_assoc]
  rfl

/-! ## A two-layer perceptron on a block -/

/-- Two affine maps with the activation between them, read at row `p` and output `q`. -/
theorem twoLayer_apply {M K H Q : Nat} {φ φ₁ φ₂ : FTy}
    (d1 : DotDims ⟨2, ![M, K]⟩ ⟨2, ![K, H]⟩ ⟨2, ![M, H]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (d2 : DotDims ⟨2, ![M, H]⟩ ⟨2, ![H, Q]⟩ ⟨2, ![M, Q]⟩)
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (x : FVec Ideal ⟨2, ![M, K]⟩ φ) (A : FVec Ideal ⟨2, ![K, H]⟩ φ₁) (a : FVec Ideal ⟨2, ![1, H]⟩ .f32)
    (B : FVec Ideal ⟨2, ![H, Q]⟩ φ₂) (b : FVec Ideal ⟨2, ![1, Q]⟩ .f32)
    (ha : (⟨2, ![1, H]⟩ : Shape).Broadcasts ⟨2, ![M, H]⟩) (hb : (⟨2, ![1, Q]⟩ : Shape).Broadcasts ⟨2, ![M, Q]⟩)
    (ht : FTy.bf16.bits < FTy.f32.bits) (p : Fin M) (q : Fin Q) :
    addf (matmul d2 none
        (truncf .bf16
          (mulf (addf (matmul d1 none x A (constant (F := Ideal) ⟨2, ![M, H]⟩ .f32 0x00000000#32)) (broadcastTo ⟨2, ![M, H]⟩ a ha))
            (logistic (addf (matmul d1 none x A (constant (F := Ideal) ⟨2, ![M, H]⟩ .f32 0x00000000#32)) (broadcastTo ⟨2, ![M, H]⟩ a ha))))
          ht)
        B (constant (F := Ideal) ⟨2, ![M, Q]⟩ .f32 0x00000000#32)) (broadcastTo ⟨2, ![M, Q]⟩ b hb) (ix2 p q)
      = Cert.Painn.mlp (fun k => x (ix2 p k)) (fun k j => A (ix2 k j)) (fun j => a (ix2 (0 : Fin 1) j))
          (fun j q => B (ix2 j q)) (fun q => b (ix2 (0 : Fin 1) q)) q := by
  rw [Cert.LibAffineBlock.affine_apply d2 h2lc h2rc h2ln h2rn h2lb h2rb]
  unfold Cert.Painn.mlp Cert.Painn.silu
  congr 1
  refine Finset.sum_congr rfl fun j _ => ?_
  simp only [truncf_apply, mulf_apply, Cert.LibRowScalar.logistic_apply]
  rw [Cert.LibAffineBlock.affine_apply d1 h1lc h1rc h1ln h1rn h1lb h1rb]

/-! ## The gate -/

/-- The gate of row `p` at output `q`: the scalar perceptron of the source features times the filter perceptron of
    the radial features `f`. -/
theorem gate_apply (f : FVec Ideal S800x20 .bf16) (x7 : FVec Ideal S20x128 .f32) (x8 : Vec Ideal S1x128 .f32)
    (x9 : Vec Ideal S128x384 .f32) (x10 : Vec Ideal S1x384 .f32) (x0 : Vec Ideal S800x128 .f32)
    (x3 : Vec Ideal S128x128 .f32) (x4 : Vec Ideal S1x128 .f32) (x5 : Vec Ideal S128x384 .f32)
    (x6 : Vec Ideal S1x384 .f32) (p : Fin 800) (q : Fin 384) :
    k0_pay8 (F := Ideal) f x7 x8 x9 x10 x0 x3 x4 x5 x6 (ix2 p q)
      = Cert.Painn.mlp (fun k => x0 (ix2 p k)) (fun k j => x3 (ix2 k j)) (fun j => x4 (ix2 (0 : Fin 1) j))
            (fun j q => x5 (ix2 j q)) (fun q => x6 (ix2 (0 : Fin 1) q)) q
        * Cert.Painn.mlp (fun k => f (ix2 p k)) (fun k j => x7 (ix2 k j)) (fun j => x8 (ix2 (0 : Fin 1) j))
            (fun j q => x9 (ix2 j q)) (fun q => x10 (ix2 (0 : Fin 1) q)) q := by
  unfold k0_pay8
  try dsimp only
  simp only [shapeCast_self]
  rw [mulf_apply]
  congr 1
  · exact twoLayer_apply dot_S800x128_S128x128_S800x128_1_0_0_1_n_n rfl rfl rfl rfl rfl rfl
      dot_S800x128_S128x384_S800x384_1_0_0_1_n_n rfl rfl rfl rfl rfl rfl _ _ x4 _ x6 _ _ _ p q
  · exact twoLayer_apply dot_S800x20_S20x128_S800x128_1_0_0_1_n_n rfl rfl rfl rfl rfl rfl
      dot_S800x128_S128x384_S800x384_1_0_0_1_n_n rfl rfl rfl rfl rfl rfl _ _ x8 _ x10 _ _ _ p q

/-! ## Layout steps of the vector store, for any extents -/

section Layout
variable {α : Type}

/-- An [a, c] array cast to [a, 1, c] reads, at (p, z, q), the operand at (p, q). -/
theorem cast_mid_apply {a c : Nat} (x : (⟨2, ![a, c]⟩ : Shape).Idx → α)
    (h : (⟨2, ![a, c]⟩ : Shape).ShapeCasts ⟨3, ![a, 1, c]⟩) (p : Fin a) (z : Fin 1) (q : Fin c) :
    shapeCast ⟨3, ![a, 1, c]⟩ x h (ix3 p z q) = x (ix2 p q) :=
  shapeCast_apply x h _ _ (by
    have hz : z.val = 0 := by omega
    rw [Shape.rowMajor_val_two, Shape.rowMajor_val_three]
    show p.val * c + q.val = (p.val * 1 + z.val) * c + q.val
    rw [hz, Nat.mul_one, Nat.add_zero])

/-- An [a, b] array cast to [a, b, 1] reads, at (p, k, z), the operand at (p, k). -/
theorem cast_last_apply {a b : Nat} (x : (⟨2, ![a, b]⟩ : Shape).Idx → α)
    (h : (⟨2, ![a, b]⟩ : Shape).ShapeCasts ⟨3, ![a, b, 1]⟩) (p : Fin a) (k : Fin b) (z : Fin 1) :
    shapeCast ⟨3, ![a, b, 1]⟩ x h (ix3 p k z) = x (ix2 p k) :=
  shapeCast_apply x h _ _ (by
    have hz : z.val = 0 := by omega
    rw [Shape.rowMajor_val_two, Shape.rowMajor_val_three]
    show p.val * b + k.val = (p.val * b + k.val) * 1 + z.val
    rw [hz, Nat.mul_one, Nat.add_zero])

/-- An [a, 1, c] array broadcast to [a, b, c] reads, at (p, k, q), the operand at (p, 0, q). -/
theorem bcast_mid_apply {a b c : Nat} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- An [a, b, 1] array broadcast to [a, b, c] reads, at (p, k, q), the operand at (p, k, 0). -/
theorem bcast_last_apply {a b c : Nat} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

end Layout

/-! ## The two stores -/

/-- The first store keeps the first group of 128 gate entries. -/
theorem store1_apply (g : FVec Ideal S800x384 .f32) (p : Fin 800) (h : Fin 128) :
    k0_pay1 (F := Ideal) g (ix2 p h) = g (ix2 p (Cert.Painn.g0 h)) := by
  unfold k0_pay1
  try dsimp only
  exact extractStridedSlice_apply ![0, 0] g slices_S800x384_o0_0_S800x128 (ix2 p h) (ix2 p (Cert.Painn.g0 h))
    (fun a => match a with
      | ⟨0, _⟩ => by show p.val = 0 + p.val; omega
      | ⟨1, _⟩ => by show h.val = 0 + h.val; omega)

/-- The second store: the second group times the vector features plus the third group times the unit
    displacement, at coordinate `c` and channel `h`. -/
theorem store2_apply (u : FVec Ideal S800x3 .f32) (g : FVec Ideal S800x384 .f32) (x1 : Vec Ideal S800x3x128 .f32)
    (p : Fin 800) (c : Fin 3) (h : Fin 128) :
    k0_pay2 (F := Ideal) u g x1 (ix3 p c h)
      = g (ix2 p (Cert.Painn.g1 h)) * x1 (ix3 p c h) + g (ix2 p (Cert.Painn.g2 h)) * u (ix2 p c) := by
  unfold k0_pay2
  try dsimp only
  rw [shapeCast_self]
  simp only [addf_apply, mulf_apply]
  rw [bcast_mid_apply, bcast_mid_apply, bcast_last_apply, cast_mid_apply, cast_mid_apply, cast_last_apply]
  rw [extractStridedSlice_apply ![0, 128] g slices_S800x384_o0_128_S800x128 (ix2 p h) (ix2 p (Cert.Painn.g1 h))
      (fun a => match a with
        | ⟨0, _⟩ => by show p.val = 0 + p.val; omega
        | ⟨1, _⟩ => by show h.val + 128 = 128 + h.val; omega),
    extractStridedSlice_apply ![0, 256] g slices_S800x384_o0_256_S800x128 (ix2 p h) (ix2 p (Cert.Painn.g2 h))
      (fun a => match a with
        | ⟨0, _⟩ => by show p.val = 0 + p.val; omega
        | ⟨1, _⟩ => by show h.val + 256 = 256 + h.val; omega)]

/-! ## The stored values are the specification's messages -/

/-- What the body stores in the scalar-message block, at row `p` and channel `h`. -/
theorem scalarMessage_apply (x0 : Vec Ideal S800x128 .f32) (x2 : Vec Ideal S800x3 .f32)
    (x3 : Vec Ideal S128x128 .f32) (x4 : Vec Ideal S1x128 .f32) (x5 : Vec Ideal S128x384 .f32)
    (x6 : Vec Ideal S1x384 .f32) (x7 : Vec Ideal S20x128 .f32) (x8 : Vec Ideal S1x128 .f32)
    (x9 : Vec Ideal S128x384 .f32) (x10 : Vec Ideal S1x384 .f32) (x11 x12 : Vec Ideal S1x20 .f32)
    (p : Fin 800) (h : Fin 128) :
    k0_pay1 (F := Ideal) (k0_pay8 (k0_pay6 x2 x11 x12) (k0_pay7 x7) x8 x9 x10 x0 x3 x4 x5 x6) (ix2 p h)
      = Cert.Painn.dS (blockParams x3 x4 x5 x6 x7 x8 x9 x10 x11 x12) (fun c => x2 (ix2 p c))
          (fun k => x0 (ix2 p k)) h := by
  rw [store1_apply, gate_apply]
  have hf : (fun k => k0_pay6 (F := Ideal) x2 x11 x12 (ix2 p k))
      = Cert.Painn.radial (blockParams x3 x4 x5 x6 x7 x8 x9 x10 x11 x12) (Cert.Painn.dist (fun c => x2 (ix2 p c))) :=
    funext fun k => radial_apply x2 x11 x12 _ (fun _ => rfl) (fun _ => rfl) p k
  rw [hf]
  unfold k0_pay7
  try dsimp only
  rw [shapeCast_self]
  rfl

/-- What the body stores in the vector-message block, at row `p`, coordinate `c` and channel `h`. -/
theorem vectorMessage_apply (x0 : Vec Ideal S800x128 .f32) (x1 : Vec Ideal S800x3x128 .f32)
    (x2 : Vec Ideal S800x3 .f32)
    (x3 : Vec Ideal S128x128 .f32) (x4 : Vec Ideal S1x128 .f32) (x5 : Vec Ideal S128x384 .f32)
    (x6 : Vec Ideal S1x384 .f32) (x7 : Vec Ideal S20x128 .f32) (x8 : Vec Ideal S1x128 .f32)
    (x9 : Vec Ideal S128x384 .f32) (x10 : Vec Ideal S1x384 .f32) (x11 x12 : Vec Ideal S1x20 .f32)
    (p : Fin 800) (c : Fin 3) (h : Fin 128) :
    k0_pay2 (F := Ideal) (k0_pay5 x2) (k0_pay8 (k0_pay6 x2 x11 x12) (k0_pay7 x7) x8 x9 x10 x0 x3 x4 x5 x6) x1
        (ix3 p c h)
      = Cert.Painn.mv (blockParams x3 x4 x5 x6 x7 x8 x9 x10 x11 x12) (fun c => x2 (ix2 p c))
          (fun k => x0 (ix2 p k)) (fun c h => x1 (ix3 p c h)) c h := by
  rw [store2_apply, gate_apply, gate_apply, unit_apply]
  have hf : (fun k => k0_pay6 (F := Ideal) x2 x11 x12 (ix2 p k))
      = Cert.Painn.radial (blockParams x3 x4 x5 x6 x7 x8 x9 x10 x11 x12) (Cert.Painn.dist (fun c => x2 (ix2 p c))) :=
    funext fun k => radial_apply x2 x11 x12 _ (fun _ => rfl) (fun _ => rfl) p k
  rw [hf]
  unfold k0_pay7
  try dsimp only
  rw [shapeCast_self]
  rfl

end Cert.KernelBody

end
-- ==== Proof.KernelBlocks.lean ====
/-
  From blocks to arrays: what the region leaves in its two output arrays.

  The grid has 500 points; point `t` works on edges `800 t … 800 t + 799`. Its three edge inputs are those rows of
  the gathered arrays, its ten weight inputs are the whole weight arrays, and it writes back rows `800 t …` of both
  outputs. Row `p` of what it writes is the specification's message of edge `800 t + p` (the body's stored values,
  read at an entry). The 500 blocks tile each output array, so after the region the scalar-message array holds the
  scalar message of every edge and the vector-message array the vector message of every edge.
-/
import proofs.«163071_j16887811407945_1_alg».proof.Proof.FrameKernelIdealP
import proofs.«163071_j16887811407945_1_alg».proof.Proof.KernelBody
import Idealize.ShloMosaic.Lib.Pipeline.Value

set_option maxRecDepth 16384

noncomputable section

namespace Cert.KernelBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelBody

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The specification over whole arrays -/

/-- The scalar messages of all edges: entry `(e, h)` from row `e` of the displacements `R` and of the gathered scalar
    features `sS`. -/
def scalarMessages (sS : S400000x128.Idx → EReal) (R : S400000x3.Idx → EReal) (P : Cert.Painn.Params) :
    S400000x128.Idx → EReal := fun i =>
  Cert.Painn.dS P (fun c => R (ix2 (⟨(i 0).val, (i 0).isLt⟩ : Fin 400000) c))
    (fun k => sS (ix2 (⟨(i 0).val, (i 0).isLt⟩ : Fin 400000) k)) (⟨(i 1).val, (i 1).isLt⟩ : Fin 128)

/-- The vector messages of all edges: entry `(e, c, h)`, with the gathered vector features `vS` laid out (edge,
    coordinate, channel). -/
def vectorMessages (sS : S400000x128.Idx → EReal) (vS : S400000x3x128.Idx → EReal) (R : S400000x3.Idx → EReal)
    (P : Cert.Painn.Params) : S400000x3x128.Idx → EReal := fun i =>
  Cert.Painn.mv P (fun c => R (ix2 (⟨(i 0).val, (i 0).isLt⟩ : Fin 400000) c))
    (fun k => sS (ix2 (⟨(i 0).val, (i 0).isLt⟩ : Fin 400000) k))
    (fun c h => vS (ix3 (⟨(i 0).val, (i 0).isLt⟩ : Fin 400000) c h))
    (⟨(i 1).val, (i 1).isLt⟩ : Fin 3) (⟨(i 2).val, (i 2).isLt⟩ : Fin 128)

/-! ## The index maps over the grid -/

/-- The printed index maps, decided once over the 500 points: the edge windows and the outputs sit at block row `t`,
    every weight window at block (0, 0). -/
theorem idx_facts : ∀ t : Fin cfg0.N,
    win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = t.val
    ∧ win0_13.index t (1 : Fin 2) = 0
    ∧ win0_14.index t (0 : Fin 3) = t.val
    ∧ win0_14.index t (1 : Fin 3) = 0
    ∧ win0_14.index t (2 : Fin 3) = 0 :=
  (by decide +kernel : ∀ t : Fin grid0.N, _)

/-! ## Each window's block at a point -/

/-- Window 3 holds its whole array at every point. -/
theorem iblk3_eq (c : Dev nD) (t : Fin cfg0.N) :
    (iblk m c 3 t : Vec Ideal S128x128 .f32) = (V m c main_v34 : S128x128.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v34 _ = V m c main_v34 y
  congr 1
  funext a
  apply Fin.ext
  match a with
  | ⟨0, _⟩ => show win0_3.index t (0 : Fin 2) * 128 + 1 * (y 0).val = (y 0).val; rw [f7]; omega
  | ⟨1, _⟩ => show win0_3.index t (1 : Fin 2) * 128 + 1 * (y 1).val = (y 1).val; rw [f8]; omega

/-- Window 4 holds its whole array at every point. -/
theorem iblk4_eq (c : Dev nD) (t : Fin cfg0.N) :
    (iblk m c 4 t : Vec Ideal S1x128 .f32) = (V m c main_v38 : S1x128.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v38 _ = V m c main_v38 y
  congr 1
  funext a
  apply Fin.ext
  match a with
  | ⟨0, _⟩ => show win0_4.index t (0 : Fin 2) * 1 + 1 * (y 0).val = (y 0).val; rw [f9]; omega
  | ⟨1, _⟩ => show win0_4.index t (1 : Fin 2) * 128 + 1 * (y 1).val = (y 1).val; rw [f10]; omega

/-- Window 5 holds its whole array at every point. -/
theorem iblk5_eq (c : Dev nD) (t : Fin cfg0.N) :
    (iblk m c 5 t : Vec Ideal S128x384 .f32) = (V m c main_v35 : S128x384.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v35 _ = V m c main_v35 y
  congr 1
  funext a
  apply Fin.ext
  match a with
  | ⟨0, _⟩ => show win0_5.index t (0 : Fin 2) * 128 + 1 * (y 0).val = (y 0).val; rw [f11]; omega
  | ⟨1, _⟩ => show win0_5.index t (1 : Fin 2) * 384 + 1 * (y 1).val = (y 1).val; rw [f12]; omega

/-- Window 6 holds its whole array at every point. -/
theorem iblk6_eq (c : Dev nD) (t : Fin cfg0.N) :
    (iblk m c 6 t : Vec Ideal S1x384 .f32) = (V m c main_v39 : S1x384.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v39 _ = V m c main_v39 y
  congr 1
  funext a
  apply Fin.ext
  match a with
  | ⟨0, _⟩ => show win0_6.index t (0 : Fin 2) * 1 + 1 * (y 0).val = (y 0).val; rw [f13]; omega
  | ⟨1, _⟩ => show win0_6.index t (1 : Fin 2) * 384 + 1 * (y 1).val = (y 1).val; rw [f14]; omega

/-- Window 7 holds its whole array at every point. -/
theorem iblk7_eq (c : Dev nD) (t : Fin cfg0.N) :
    (iblk m c 7 t : Vec Ideal S20x128 .f32) = (V m c main_v36 : S20x128.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v36 _ = V m c main_v36 y
  congr 1
  funext a
  apply Fin.ext
  match a with
  | ⟨0, _⟩ => show win0_7.index t (0 : Fin 2) * 20 + 1 * (y 0).val = (y 0).val; rw [f15]; omega
  | ⟨1, _⟩ => show win0_7.index t (1 : Fin 2) * 128 + 1 * (y 1).val = (y 1).val; rw [f16]; omega

/-- Window 8 holds its whole array at every point. -/
theorem iblk8_eq (c : Dev nD) (t : Fin cfg0.N) :
    (iblk m c 8 t : Vec Ideal S1x128 .f32) = (V m c main_v40 : S1x128.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v40 _ = V m c main_v40 y
  congr 1
  funext a
  apply Fin.ext
  match a with
  | ⟨0, _⟩ => show win0_8.index t (0 : Fin 2) * 1 + 1 * (y 0).val = (y 0).val; rw [f17]; omega
  | ⟨1, _⟩ => show win0_8.index t (1 : Fin 2) * 128 + 1 * (y 1).val = (y 1).val; rw [f18]; omega

/-- Window 9 holds its whole array at every point. -/
theorem iblk9_eq (c : Dev nD) (t : Fin cfg0.N) :
    (iblk m c 9 t : Vec Ideal S128x384 .f32) = (V m c main_v37 : S128x384.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v37 _ = V m c main_v37 y
  congr 1
  funext a
  apply Fin.ext
  match a with
  | ⟨0, _⟩ => show win0_9.index t (0 : Fin 2) * 128 + 1 * (y 0).val = (y 0).val; rw [f19]; omega
  | ⟨1, _⟩ => show win0_9.index t (1 : Fin 2) * 384 + 1 * (y 1).val = (y 1).val; rw [f20]; omega

/-- Window 10 holds its whole array at every point. -/
theorem iblk10_eq (c : Dev nD) (t : Fin cfg0.N) :
    (iblk m c 10 t : Vec Ideal S1x384 .f32) = (V m c main_v41 : S1x384.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v41 _ = V m c main_v41 y
  congr 1
  funext a
  apply Fin.ext
  match a with
  | ⟨0, _⟩ => show win0_10.index t (0 : Fin 2) * 1 + 1 * (y 0).val = (y 0).val; rw [f21]; omega
  | ⟨1, _⟩ => show win0_10.index t (1 : Fin 2) * 384 + 1 * (y 1).val = (y 1).val; rw [f22]; omega

/-- Window 11 holds its whole array at every point. -/
theorem iblk11_eq (c : Dev nD) (t : Fin cfg0.N) :
    (iblk m c 11 t : Vec Ideal S1x20 .f32) = (V m c main_v42 : S1x20.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v42 _ = V m c main_v42 y
  congr 1
  funext a
  apply Fin.ext
  match a with
  | ⟨0, _⟩ => show win0_11.index t (0 : Fin 2) * 1 + 1 * (y 0).val = (y 0).val; rw [f23]; omega
  | ⟨1, _⟩ => show win0_11.index t (1 : Fin 2) * 20 + 1 * (y 1).val = (y 1).val; rw [f24]; omega

/-- Window 12 holds its whole array at every point. -/
theorem iblk12_eq (c : Dev nD) (t : Fin cfg0.N) :
    (iblk m c 12 t : Vec Ideal S1x20 .f32) = (V m c main_v43 : S1x20.Idx → EReal) := by
  obtain ⟨f0, f1, f2, f3, f4, f5, f6, f7, f8, f9, f10, f11, f12, f13, f14, f15, f16, f17, f18, f19, f20, f21, f22, f23, f24, f25, f26, f27, f28, f29, f30, f31⟩ := idx_facts t
  funext y
  unfold iblk
  rw [View.read_apply]
  show V m c main_v43 _ = V m c main_v43 y
  congr 1
  funext a
  apply Fin.ext
  match a with
  | ⟨0, _⟩ => show win0_12.index t (0 : Fin 2) * 1 + 1 * (y 0).val = (y 0).val; rw [f25]; omega
  | ⟨1, _⟩ => show win0_12.index t (1 : Fin 2) * 20 + 1 * (y 1).val = (y 1).val; rw [f26]; omega

/-- Row `p` of the source-feature block at point `t` is row `800 t + p` of the gathered features. -/
theorem iblk0_apply (c : Dev nD) (t : Fin cfg0.N) (p : Fin 800) (k : Fin 128) (e : Fin 400000)
    (he : e.val = t.val * 800 + p.val) :
    (iblk m c 0 t : Vec Ideal S800x128 .f32) (ix2 p k) = (V m c main_v10 : S400000x128.Idx → EReal) (ix2 e k) := by
  obtain ⟨f0, f1, f2, f3, f4, f5, f6, f7, f8, f9, f10, f11, f12, f13, f14, f15, f16, f17, f18, f19, f20, f21, f22, f23, f24, f25, f26, f27, f28, f29, f30, f31⟩ := idx_facts t
  unfold iblk
  rw [View.read_apply]
  show V m c main_v10 _ = V m c main_v10 _
  congr 1
  funext a
  apply Fin.ext
  match a with
  | ⟨0, _⟩ => show win0_0.index t (0 : Fin 2) * 800 + 1 * p.val = e.val; rw [f0, he]; omega
  | ⟨1, _⟩ => show win0_0.index t (1 : Fin 2) * 128 + 1 * k.val = k.val; rw [f1]; omega

/-- Row `p` of the vector-feature block at point `t` is row `800 t + p` of the gathered vector features. -/
theorem iblk1_apply (c : Dev nD) (t : Fin cfg0.N) (p : Fin 800) (q : Fin 3) (k : Fin 128) (e : Fin 400000)
    (he : e.val = t.val * 800 + p.val) :
    (iblk m c 1 t : Vec Ideal S800x3x128 .f32) (ix3 p q k)
      = (V m c main_v18 : S400000x3x128.Idx → EReal) (ix3 e q k) := by
  obtain ⟨f0, f1, f2, f3, f4, f5, f6, f7, f8, f9, f10, f11, f12, f13, f14, f15, f16, f17, f18, f19, f20, f21, f22, f23, f24, f25, f26, f27, f28, f29, f30, f31⟩ := idx_facts t
  unfold iblk
  rw [View.read_apply]
  show V m c main_v18 _ = V m c main_v18 _
  congr 1
  funext a
  apply Fin.ext
  match a with
  | ⟨0, _⟩ => show win0_1.index t (0 : Fin 3) * 800 + 1 * p.val = e.val; rw [f2, he]; omega
  | ⟨1, _⟩ => show win0_1.index t (1 : Fin 3) * 3 + 1 * q.val = q.val; rw [f3]; omega
  | ⟨2, _⟩ => show win0_1.index t (2 : Fin 3) * 128 + 1 * k.val = k.val; rw [f4]; omega

/-- Row `p` of the displacement block at point `t` is row `800 t + p` of the displacements. -/
theorem iblk2_apply (c : Dev nD) (t : Fin cfg0.N) (p : Fin 800) (k : Fin 3) (e : Fin 400000)
    (he : e.val = t.val * 800 + p.val) :
    (iblk m c 2 t : Vec Ideal S800x3 .f32) (ix2 p k) = (V m c main_v33 : S400000x3.Idx → EReal) (ix2 e k) := by
  obtain ⟨f0, f1, f2, f3, f4, f5, f6, f7, f8, f9, f10, f11, f12, f13, f14, f15, f16, f17, f18, f19, f20, f21, f22, f23, f24, f25, f26, f27, f28, f29, f30, f31⟩ := idx_facts t
  unfold iblk
  rw [View.read_apply]
  show V m c main_v33 _ = V m c main_v33 _
  congr 1
  funext a
  apply Fin.ext
  match a with
  | ⟨0, _⟩ => show win0_2.index t (0 : Fin 2) * 800 + 1 * p.val = e.val; rw [f5, he]; omega
  | ⟨1, _⟩ => show win0_2.index t (1 : Fin 2) * 3 + 1 * k.val = k.val; rw [f6]; omega

/-! ## What a point writes back -/

/-- The weights the body sees at any point are the whole weight arrays. -/
theorem params_eq (c : Dev nD) (t : Fin cfg0.N) :
    blockParams (iblk m c 3 t) (iblk m c 4 t) (iblk m c 5 t) (iblk m c 6 t) (iblk m c 7 t) (iblk m c 8 t) (iblk m c 9 t) (iblk m c 10 t) (iblk m c 11 t) (iblk m c 12 t)
      = blockParams (V m c main_v34) (V m c main_v38) (V m c main_v35) (V m c main_v39) (V m c main_v36) (V m c main_v40) (V m c main_v37) (V m c main_v41) (V m c main_v42) (V m c main_v43) := by
  rw [iblk3_eq, iblk4_eq, iblk5_eq, iblk6_eq, iblk7_eq, iblk8_eq, iblk9_eq, iblk10_eq, iblk11_eq, iblk12_eq]

/-- Point `t` writes back block `t` of the scalar messages. -/
theorem flushed13_eq (c : Dev nD) (t : Fin cfg0.N) :
    (dats m 0 c).flushed 13 t = ((cfg0.win 13).blk t).view.read (Elt Ideal)
      (scalarMessages (V m c main_v10) (V m c main_v33) (blockParams (V m c main_v34) (V m c main_v38) (V m c main_v35) (V m c main_v39) (V m c main_v36) (V m c main_v40) (V m c main_v37) (V m c main_v41) (V m c main_v42) (V m c main_v43))) := by
  obtain ⟨f0, f1, f2, f3, f4, f5, f6, f7, f8, f9, f10, f11, f12, f13, f14, f15, f16, f17, f18, f19, f20, f21, f22, f23, f24, f25, f26, f27, f28, f29, f30, f31⟩ := idx_facts t
  show (cfg0.win 13).cut (grid0.coords t) ((dats m 0 c).after 13 t) = _
  rw [after0_13]
  unfold out0_13
  rw [View.canon_unit_zero hz2]
  simp only [View.ld_unit_zero (S := S800x3) hz2, View.ld_unit_zero (S := S1x20) hz2, View.ld_unit_zero (S := S20x128) hz2, View.ld_unit_zero (S := S1x128) hz2, View.ld_unit_zero (S := S128x384) hz2, View.ld_unit_zero (S := S1x384) hz2, View.ld_unit_zero (S := S800x128) hz2, View.ld_unit_zero (S := S128x128) hz2]
  funext j
  obtain ⟨p, h, rfl⟩ : ∃ (p : Fin 800) (h : Fin 128), j = ix2 p h := ⟨j 0, j 1, eq_ix2 j⟩
  have ht : t.val < 500 := by
    have h1 := t.isLt
    have h2 : cfg0.N = 500 := N_0
    omega
  have hp : p.val < 800 := p.isLt
  let e : Fin 400000 := ⟨t.val * 800 + p.val, by omega⟩
  refine (scalarMessage_apply (iblk m c 0 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p h).trans ?_
  rw [params_eq m c t]
  have hr : (fun q => (iblk m c 2 t : Vec Ideal S800x3 .f32) (ix2 p q))
      = fun q => (V m c main_v33 : S400000x3.Idx → EReal) (ix2 e q) :=
    funext fun q => iblk2_apply m c t p q e rfl
  have hs : (fun k => (iblk m c 0 t : Vec Ideal S800x128 .f32) (ix2 p k))
      = fun k => (V m c main_v10 : S400000x128.Idx → EReal) (ix2 e k) :=
    funext fun k => iblk0_apply m c t p k e rfl
  rw [hr, hs]
  have hemb : (((cfg0.win 13).blk t).view.emb (ix2 p h) : S400000x128.Idx) = ix2 e h := by
    funext a
    apply Fin.ext
    match a with
    | ⟨0, _⟩ => show win0_13.index t (0 : Fin 2) * 800 + 1 * p.val = t.val * 800 + p.val; rw [f27]; omega
    | ⟨1, _⟩ => show win0_13.index t (1 : Fin 2) * 128 + 1 * h.val = h.val; rw [f28]; omega
  refine Eq.trans ?_ (congrArg (scalarMessages (V m c main_v10) (V m c main_v33) (blockParams (V m c main_v34) (V m c main_v38) (V m c main_v35) (V m c main_v39) (V m c main_v36) (V m c main_v40) (V m c main_v37) (V m c main_v41) (V m c main_v42) (V m c main_v43))) hemb).symm
  rfl

/-- Point `t` writes back block `t` of the vector messages. -/
theorem flushed14_eq (c : Dev nD) (t : Fin cfg0.N) :
    (dats m 0 c).flushed 14 t = ((cfg0.win 14).blk t).view.read (Elt Ideal)
      (vectorMessages (V m c main_v10) (V m c main_v18) (V m c main_v33) (blockParams (V m c main_v34) (V m c main_v38) (V m c main_v35) (V m c main_v39) (V m c main_v36) (V m c main_v40) (V m c main_v37) (V m c main_v41) (V m c main_v42) (V m c main_v43))) := by
  obtain ⟨f0, f1, f2, f3, f4, f5, f6, f7, f8, f9, f10, f11, f12, f13, f14, f15, f16, f17, f18, f19, f20, f21, f22, f23, f24, f25, f26, f27, f28, f29, f30, f31⟩ := idx_facts t
  show (cfg0.win 14).cut (grid0.coords t) ((dats m 0 c).after 14 t) = _
  rw [after0_14]
  unfold out0_14
  rw [View.canon_unit_zero hz3]
  simp only [View.ld_unit_zero (S := S800x3) hz2, View.ld_unit_zero (S := S1x20) hz2, View.ld_unit_zero (S := S20x128) hz2, View.ld_unit_zero (S := S1x128) hz2, View.ld_unit_zero (S := S128x384) hz2, View.ld_unit_zero (S := S1x384) hz2, View.ld_unit_zero (S := S800x128) hz2, View.ld_unit_zero (S := S128x128) hz2, View.ld_unit_zero (S := S800x3x128) hz3]
  funext j
  obtain ⟨p, q, h, rfl⟩ : ∃ (p : Fin 800) (q : Fin 3) (h : Fin 128), j = ix3 p q h := ⟨j 0, j 1, j 2, eq_ix3 j⟩
  have ht : t.val < 500 := by
    have h1 := t.isLt
    have h2 : cfg0.N = 500 := N_0
    omega
  have hp : p.val < 800 := p.isLt
  let e : Fin 400000 := ⟨t.val * 800 + p.val, by omega⟩
  refine (vectorMessage_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q h).trans ?_
  rw [params_eq m c t]
  have hr : (fun q => (iblk m c 2 t : Vec Ideal S800x3 .f32) (ix2 p q))
      = fun q => (V m c main_v33 : S400000x3.Idx → EReal) (ix2 e q) :=
    funext fun q => iblk2_apply m c t p q e rfl
  have hs : (fun k => (iblk m c 0 t : Vec Ideal S800x128 .f32) (ix2 p k))
      = fun k => (V m c main_v10 : S400000x128.Idx → EReal) (ix2 e k) :=
    funext fun k => iblk0_apply m c t p k e rfl
  have hv : (fun q k => (iblk m c 1 t : Vec Ideal S800x3x128 .f32) (ix3 p q k))
      = fun q k => (V m c main_v18 : S400000x3x128.Idx → EReal) (ix3 e q k) :=
    funext fun q => funext fun k => iblk1_apply m c t p q k e rfl
  rw [hr, hs, hv]
  have hemb : (((cfg0.win 14).blk t).view.emb (ix3 p q h) : S400000x3x128.Idx) = ix3 e q h := by
    funext a
    apply Fin.ext
    match a with
    | ⟨0, _⟩ => show win0_14.index t (0 : Fin 3) * 800 + 1 * p.val = t.val * 800 + p.val; rw [f29]; omega
    | ⟨1, _⟩ => show win0_14.index t (1 : Fin 3) * 3 + 1 * q.val = q.val; rw [f30]; omega
    | ⟨2, _⟩ => show win0_14.index t (2 : Fin 3) * 128 + 1 * h.val = h.val; rw [f31]; omega
  refine Eq.trans ?_ (congrArg (vectorMessages (V m c main_v10) (V m c main_v18) (V m c main_v33) (blockParams (V m c main_v34) (V m c main_v38) (V m c main_v35) (V m c main_v39) (V m c main_v36) (V m c main_v40) (V m c main_v37) (V m c main_v41) (V m c main_v42) (V m c main_v43))) hemb).symm
  rfl

/-! ## The blocks tile the arrays -/

/-- An index of the scalar-message array is in point `t`'s block iff each coordinate is in the block's range. -/
theorem mem_blk13 (t : Fin cfg0.N) (i : S400000x128.Idx) :
    i ∈ ((cfg0.win 13).blk t).view.set ↔ ∀ a : Fin 2, win0_13.index t a * S800x128.size a ≤ (i a).val
      ∧ (i a).val < win0_13.index t a * S800x128.size a + S800x128.size a := by
  show i ∈ ((View.whole main_v44_0).slice (win0_13.rect t)).set ↔ _
  rw [View.set_slice_whole, Rect.mem_set_unit]
  exact Iff.rfl

/-- The same for the vector-message array. -/
theorem mem_blk14 (t : Fin cfg0.N) (i : S400000x3x128.Idx) :
    i ∈ ((cfg0.win 14).blk t).view.set ↔ ∀ a : Fin 3, win0_14.index t a * S800x3x128.size a ≤ (i a).val
      ∧ (i a).val < win0_14.index t a * S800x3x128.size a + S800x3x128.size a := by
  show i ∈ ((View.whole main_v44_1).slice (win0_14.rect t)).set ↔ _
  rw [View.set_slice_whole, Rect.mem_set_unit]
  exact Iff.rfl

/-- Row `r` of the scalar-message array is covered by point `r / 800`. -/
theorem cover13 (i : S400000x128.Idx) :
    ∃ t : Fin cfg0.N, (cfg0.win 13).flush t = true ∧ i ∈ ((cfg0.win 13).blk t).view.set := by
  have hi0 : (i 0).val < 400000 := (i 0).isLt
  have hi1 : (i 1).val < 128 := (i 1).isLt
  have hN : cfg0.N = 500 := N_0
  let t : Fin cfg0.N := ⟨(i 0).val / 800, by rw [hN]; omega⟩
  obtain ⟨f0, f1, f2, f3, f4, f5, f6, f7, f8, f9, f10, f11, f12, f13, f14, f15, f16, f17, f18, f19, f20, f21, f22, f23, f24, f25, f26, f27, f28, f29, f30, f31⟩ := idx_facts t
  refine ⟨t, flush0_13 t, ?_⟩
  rw [mem_blk13]
  intro a
  match a with
  | ⟨0, _⟩ =>
    show win0_13.index t (0 : Fin 2) * 800 ≤ (i 0).val ∧ (i 0).val < win0_13.index t (0 : Fin 2) * 800 + 800
    rw [f27]
    show (i 0).val / 800 * 800 ≤ (i 0).val ∧ (i 0).val < (i 0).val / 800 * 800 + 800
    omega
  | ⟨1, _⟩ =>
    show win0_13.index t (1 : Fin 2) * 128 ≤ (i 1).val ∧ (i 1).val < win0_13.index t (1 : Fin 2) * 128 + 128
    rw [f28]
    omega

/-- Row `r` of the vector-message array is covered by point `r / 800`. -/
theorem cover14 (i : S400000x3x128.Idx) :
    ∃ t : Fin cfg0.N, (cfg0.win 14).flush t = true ∧ i ∈ ((cfg0.win 14).blk t).view.set := by
  have hi0 : (i 0).val < 400000 := (i 0).isLt
  have hi1 : (i 1).val < 3 := (i 1).isLt
  have hi2 : (i 2).val < 128 := (i 2).isLt
  have hN : cfg0.N = 500 := N_0
  let t : Fin cfg0.N := ⟨(i 0).val / 800, by rw [hN]; omega⟩
  obtain ⟨f0, f1, f2, f3, f4, f5, f6, f7, f8, f9, f10, f11, f12, f13, f14, f15, f16, f17, f18, f19, f20, f21, f22, f23, f24, f25, f26, f27, f28, f29, f30, f31⟩ := idx_facts t
  refine ⟨t, flush0_14 t, ?_⟩
  rw [mem_blk14]
  intro a
  match a with
  | ⟨0, _⟩ =>
    show win0_14.index t (0 : Fin 3) * 800 ≤ (i 0).val ∧ (i 0).val < win0_14.index t (0 : Fin 3) * 800 + 800
    rw [f29]
    show (i 0).val / 800 * 800 ≤ (i 0).val ∧ (i 0).val < (i 0).val / 800 * 800 + 800
    omega
  | ⟨1, _⟩ =>
    show win0_14.index t (1 : Fin 3) * 3 ≤ (i 1).val ∧ (i 1).val < win0_14.index t (1 : Fin 3) * 3 + 3
    rw [f30]
    omega
  | ⟨2, _⟩ =>
    show win0_14.index t (2 : Fin 3) * 128 ≤ (i 2).val ∧ (i 2).val < win0_14.index t (2 : Fin 3) * 128 + 128
    rw [f31]
    omega

/-! ## The two output arrays after the region -/

/-- After the region the scalar-message array holds the scalar message of every edge. -/
theorem final13 (c : Dev nD) : (dats m 0 c).arrAt 13 cfg0.N
    = scalarMessages (V m c main_v10) (V m c main_v33) (blockParams (V m c main_v34) (V m c main_v38) (V m c main_v35) (V m c main_v39) (V m c main_v36) (V m c main_v40) (V m c main_v37) (V m c main_v41) (V m c main_v42) (V m c main_v43)) :=
  (dats m 0 c).arrAt_eq_of_cover 13 _ (fun t _ => flushed13_eq m c t) cover13

/-- After the region the vector-message array holds the vector message of every edge. -/
theorem final14 (c : Dev nD) : (dats m 0 c).arrAt 14 cfg0.N
    = vectorMessages (V m c main_v10) (V m c main_v18) (V m c main_v33) (blockParams (V m c main_v34) (V m c main_v38) (V m c main_v35) (V m c main_v39) (V m c main_v36) (V m c main_v40) (V m c main_v37) (V m c main_v41) (V m c main_v42) (V m c main_v43)) :=
  (dats m 0 c).arrAt_eq_of_cover 14 _ (fun t _ => flushed14_eq m c t) cover14

end Cert.KernelBlocks

end
-- ==== Proof.LibIdx3.lean ====
/-
  A rank-3 index set is the product of its three coordinate ranges (`idxEquiv3`), so a sum over it, in any
  additive commutative monoid and for any extents, is the triple sum over the coordinates (`sum_idx3`): the rank-3
  companion of the library's `idxEquiv2` / `sum_idx2`. It is what turns a total reduction of a rank-3 array, read as
  a sum over every index, into sums a proof can re-index axis by axis.
-/
import Idealize.ShloMosaic.Lib.ValueIdx

noncomputable section

open scoped BigOperators

namespace Cert.Pairwise

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Pairwise

end
-- ==== Proof.LibSlabOps.lean ====
/-
  A gather of whole slabs and a scatter-add of whole slabs, read at an entry.

  A rank-3 array of shape [N, A, B] is a stack of N slabs, each an A × B matrix. "Take the slabs x[src] at E slab
  numbers, work on them, and add slab e of the [E, A, B] result into slab dst[e] of an [N, A, B] accumulator" is
  the rank-3 form of a sparse-times-dense product whose dense side carries two feature axes. In StableHLO the first
  step is a gather whose slices are whole slabs (operand [N, A, B], start indices [E, 1], result [E, A, B];
  offset axes 1 and 2, collapsed axis 0, no batching axes, start index map [0], index vector on axis 1, slice sizes
  [1, A, B]), and the last step is a scatter with an add body whose windows are whole slabs (operand
  [N, A, B], scatter indices [E, 1], updates [E, A, B]; update window axes 1 and 2, inserted window axis 0,
  scatter-dims-to-operand-dims [0], index vector on axis 1). This file reads both at one entry, for all extents
  N, E, A, B and every index width:

  * gather_slabs_apply: entry (e, a, b) of the gather is the operand's entry (r, a, b), where r is the start
    index idx (e, 0) read as a signed integer and clamped into [0, N − 1];
  * scatterAdd_slabs_apply: at the ideal instance (the extended reals), entry (n, a, b) of the scatter-add is the
    operand's entry (n, a, b) plus the sum over e : Fin E of the update's entry (e, a, b) for those e whose
    scatter index idx (e, 0), read as a signed integer, is n. An update whose slab number is negative or at
    least N lands nowhere: it equals no n : Fin N.

  Each is stated twice: for the record slabGatherDims / slabScatterDims built from the extents (a literal record
  with the same lists is that record by unfolding, its decided conditions being a proof of the same proposition), and,
  …_of_eq, for ANY record whose lists are the ones above (each hypothesis closes by rfl on a literal record), the
  form to rewrite with. It is the two-window-axis companion of the row case (operand [N, C], one window axis): the
  slab axis behaves as the row axis does there, and each of the two window axes as the column axis does.
-/
import Idealize.ShloMosaic.PureOps.Ideal.Laws
import Idealize.ShloMosaic.Lib.ValueIdx
import proofs.«163071_j16887811407945_1_alg».proof.Proof.LibIdx3

noncomputable section

open scoped BigOperators

namespace Cert.LibSlabOps

open Idealize.ShloMosaic Idealize.ShloMosaic.ValueIdx

variable {N E A B w : Nat}

/-- Axis 1 is not the axis 0 the index maps name … -/
private theorem one_not_mem_zero : (1 : Fin 3) ∉ ([0] : List (Fin 3)) := by decide
/-- … and neither is axis 2. -/
private theorem two_not_mem_zero : (2 : Fin 3) ∉ ([0] : List (Fin 3)) := by decide
/-- Of three axes, the ones other than axis 0 do not include axis 0 … -/
private theorem zero_not_mem_kept : (0 : Fin 3) ∉ (List.finRange 3).filter (fun a => a ∉ ([0] : List (Fin 3))) := by decide
/-- … and do include axis 1 … -/
private theorem one_mem_kept : (1 : Fin 3) ∈ (List.finRange 3).filter (fun a => a ∉ ([0] : List (Fin 3))) := by decide
/-- … and axis 2. -/
private theorem two_mem_kept : (2 : Fin 3) ∈ (List.finRange 3).filter (fun a => a ∉ ([0] : List (Fin 3))) := by decide
/-- The same with the (empty) list of batching axes appended to the removed ones: axis 1 is kept … -/
private theorem one_mem_kept_append :
    (1 : Fin 3) ∈ (List.finRange 3).filter (fun a => a ∉ ([0] ++ [] : List (Fin 3))) := by decide
/-- … and so is axis 2. -/
private theorem two_mem_kept_append :
    (2 : Fin 3) ∈ (List.finRange 3).filter (fun a => a ∉ ([0] ++ [] : List (Fin 3))) := by decide

/-! ## The slab scatter-add -/

/-- The dimension numbers of a scatter of whole slabs: operand [N, A, B], scatter indices [E, 1], updates
    [E, A, B]; the updates' axes 1 and 2 are the window axes, the operand's axis 0 is the inserted one and the
    one the scatter index names, and the index vector lies along axis 1 of the scatter indices. Their conditions
    wf are decided on a program's literal extents. -/
abbrev slabScatterDims (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- On the slab axis the window of update (e, a', b') starts at the scatter index idx (e, 0), read signed. -/
theorem scatter_start_zero (wf) (idx : IVec ⟨2, ![E, 1]⟩ w) (e : Fin E) (a' : Fin A) (b' : Fin B) :
    (slabScatterDims N E A B wf).start (ix3 e a' b') idx 0 = (idx (ix2 e ⟨0, Nat.one_pos⟩)).toInt := by
  unfold ScatterDims.start
  rw [dif_pos (show (0 : Fin 3) ∈ (slabScatterDims N E A B wf).scatterDimsToOperandDims from List.mem_singleton.mpr rfl)]
  have hsi : (slabScatterDims N E A B wf).siIdx (ix3 e a' b')
      ⟨List.idxOf (0 : Fin 3) (slabScatterDims N E A B wf).scatterDimsToOperandDims,
        List.idxOf_lt_length_iff.2 (List.mem_singleton.mpr rfl)⟩ = ix2 e ⟨0, Nat.one_pos⟩ := by
    funext k; refine Fin.ext ?_
    match k with
    | ⟨0, _⟩ => rfl
    | ⟨1, _⟩ => rfl
  rw [hsi]

/-- On the first window axis, which no scatter index names, every window starts at 0 … -/
theorem scatter_start_one (wf) (idx : IVec ⟨2, ![E, 1]⟩ w) (j : (⟨3, ![E, A, B]⟩ : Shape).Idx) :
    (slabScatterDims N E A B wf).start j idx 1 = 0 := by
  unfold ScatterDims.start
  rw [dif_neg (show (1 : Fin 3) ∉ (slabScatterDims N E A B wf).scatterDimsToOperandDims from one_not_mem_zero)]

/-- … and so it does on the second. -/
theorem scatter_start_two (wf) (idx : IVec ⟨2, ![E, 1]⟩ w) (j : (⟨3, ![E, A, B]⟩ : Shape).Idx) :
    (slabScatterDims N E A B wf).start j idx 2 = 0 := by
  unfold ScatterDims.start
  rw [dif_neg (show (2 : Fin 3) ∉ (slabScatterDims N E A B wf).scatterDimsToOperandDims from two_not_mem_zero)]

/-- The slab axis is inserted: the window coordinate there is 0. -/
theorem scatter_window_zero (wf) (j : (⟨3, ![E, A, B]⟩ : Shape).Idx) :
    (slabScatterDims N E A B wf).window j 0 = 0 := by
  unfold ScatterDims.window
  rw [dif_neg (show (0 : Fin 3) ∉ (slabScatterDims N E A B wf).sKept from zero_not_mem_kept)]

/-- On the first window axis the window coordinate of update (e, a', b') is a' … -/
theorem scatter_window_one (wf) (e : Fin E) (a' : Fin A) (b' : Fin B) :
    (slabScatterDims N E A B wf).window (ix3 e a' b') 1 = a'.val := by
  unfold ScatterDims.window
  rw [dif_pos (show (1 : Fin 3) ∈ (slabScatterDims N E A B wf).sKept from one_mem_kept)]
  rfl

/-- … and on the second it is b'. -/
theorem scatter_window_two (wf) (e : Fin E) (a' : Fin A) (b' : Fin B) :
    (slabScatterDims N E A B wf).window (ix3 e a' b') 2 = b'.val := by
  unfold ScatterDims.window
  rw [dif_pos (show (2 : Fin 3) ∈ (slabScatterDims N E A B wf).sKept from two_mem_kept)]
  rfl

/-- WHERE AN UPDATE LANDS: update (e, a', b') lands at operand entry (n, a, b) exactly when its scatter index
    idx (e, 0), read signed, is n and its window coordinates (a', b') are (a, b). (Start plus window
    coordinate is the signed index on the slab axis, a' on the first window axis and b' on the second; a slab
    number outside [0, N) is dropped, and is no n : Fin N.) -/
theorem scatter_resultIdx?_iff (wf) (idx : IVec ⟨2, ![E, 1]⟩ w) (e : Fin E) (a' : Fin A) (b' : Fin B)
    (n : Fin N) (a : Fin A) (b : Fin B) :
    (slabScatterDims N E A B wf).resultIdx? (ix3 e a' b') idx = some (ix3 n a b)
      ↔ (idx (ix2 e ⟨0, Nat.one_pos⟩)).toInt = (n.val : Int) ∧ a' = a ∧ b' = b := by
  have h0 := scatter_start_zero (N := N) wf idx e a' b'
  have h1 := scatter_start_one (N := N) wf idx (ix3 e a' b')
  have h2 := scatter_start_two (N := N) wf idx (ix3 e a' b')
  have w0 := scatter_window_zero (N := N) wf (ix3 e a' b')
  have w1 := scatter_window_one (N := N) wf e a' b'
  have w2 := scatter_window_two (N := N) wf e a' b'
  unfold ScatterDims.resultIdx?
  split
  · -- the window is inside the operand: compare the three coordinates
    rename_i h
    rw [Option.some.injEq]
    constructor
    · intro hf
      have e0 : ((slabScatterDims N E A B wf).start (ix3 e a' b') idx 0
          + (slabScatterDims N E A B wf).window (ix3 e a' b') 0).toNat = n.val := congrArg (fun f => (f 0).val) hf
      have e1 : ((slabScatterDims N E A B wf).start (ix3 e a' b') idx 1
          + (slabScatterDims N E A B wf).window (ix3 e a' b') 1).toNat = a.val := congrArg (fun f => (f 1).val) hf
      have e2 : ((slabScatterDims N E A B wf).start (ix3 e a' b') idx 2
          + (slabScatterDims N E A B wf).window (ix3 e a' b') 2).toNat = b.val := congrArg (fun f => (f 2).val) hf
      have g0 := (h 0).1
      rw [h0, w0] at e0 g0
      rw [h1, w1] at e1
      rw [h2, w2] at e2
      exact ⟨by omega, Fin.ext (by omega), Fin.ext (by omega)⟩
    · rintro ⟨hz, rfl, rfl⟩
      funext k
      refine Fin.ext ?_
      match k with
      | ⟨0, _⟩ =>
        show ((slabScatterDims N E A B wf).start (ix3 e a' b') idx 0
          + (slabScatterDims N E A B wf).window (ix3 e a' b') 0).toNat = n.val
        rw [h0, w0]; omega
      | ⟨1, _⟩ =>
        show ((slabScatterDims N E A B wf).start (ix3 e a' b') idx 1
          + (slabScatterDims N E A B wf).window (ix3 e a' b') 1).toNat = a'.val
        rw [h1, w1]; omega
      | ⟨2, _⟩ =>
        show ((slabScatterDims N E A B wf).start (ix3 e a' b') idx 2
          + (slabScatterDims N E A B wf).window (ix3 e a' b') 2).toNat = b'.val
        rw [h2, w2]; omega
  · -- the window leaves the operand: then the signed index is no slab number
    rename_i h
    constructor
    · intro hf; exact absurd hf (by simp)
    · rintro ⟨hz, rfl, rfl⟩
      exfalso; apply h; intro k
      match k with
      | ⟨0, _⟩ =>
        show 0 ≤ (slabScatterDims N E A B wf).start (ix3 e a' b') idx 0 + (slabScatterDims N E A B wf).window (ix3 e a' b') 0
          ∧ (slabScatterDims N E A B wf).start (ix3 e a' b') idx 0 + (slabScatterDims N E A B wf).window (ix3 e a' b') 0 < (N : Int)
        rw [h0, w0]; have := n.isLt; omega
      | ⟨1, _⟩ =>
        show 0 ≤ (slabScatterDims N E A B wf).start (ix3 e a' b') idx 1 + (slabScatterDims N E A B wf).window (ix3 e a' b') 1
          ∧ (slabScatterDims N E A B wf).start (ix3 e a' b') idx 1 + (slabScatterDims N E A B wf).window (ix3 e a' b') 1 < (A : Int)
        rw [h1, w1]; have := a'.isLt; omega
      | ⟨2, _⟩ =>
        show 0 ≤ (slabScatterDims N E A B wf).start (ix3 e a' b') idx 2 + (slabScatterDims N E A B wf).window (ix3 e a' b') 2
          ∧ (slabScatterDims N E A B wf).start (ix3 e a' b') idx 2 + (slabScatterDims N E A B wf).window (ix3 e a' b') 2 < (B : Int)
        rw [h2, w2]; have := b'.isLt; omega

/-- THE SLAB SCATTER-ADD READ AT (n, a, b), at the ideal instance: the operand's entry plus the sum, over the
    update slabs e, of the update's entry (e, a, b) when the scatter index idx (e, 0), read signed, is n, and
    0 otherwise. (The sum over the updates that land at (n, a, b) is a triple sum over (e, a', b'); by
    scatter_resultIdx?_iff the sum over a' has the one term a' = a, and the sum over b' the one term
    b' = b.) -/
theorem scatterAdd_slabs_apply {φ : FTy} (wf) (x : FVec Ideal ⟨3, ![N, A, B]⟩ φ) (idx : IVec ⟨2, ![E, 1]⟩ w)
    (upd : FVec Ideal ⟨3, ![E, A, B]⟩ φ) (n : Fin N) (a : Fin A) (b : Fin B) :
    Host.scatterAdd (F := Ideal) (slabScatterDims N E A B wf) x idx upd (ix3 n a b)
      = x (ix3 n a b)
        + ∑ e : Fin E, if (idx (ix2 e ⟨0, Nat.one_pos⟩)).toInt = (n.val : Int) then upd (ix3 e a b) else 0 := by
  show x (ix3 n a b) + ∑ j ∈ Finset.univ.filter
    (fun j => (slabScatterDims N E A B wf).resultIdx? j idx = some (ix3 n a b)), upd j = _
  congr 1
  rw [Finset.sum_filter, Cert.Pairwise.sum_idx3]
  refine Finset.sum_congr rfl fun e _ => ?_
  rw [Fintype.sum_eq_single a]
  · rw [Fintype.sum_eq_single b]
    · exact if_congr
        ⟨fun h => ((scatter_resultIdx?_iff wf idx e a b n a b).mp h).1,
          fun h => (scatter_resultIdx?_iff wf idx e a b n a b).mpr ⟨h, rfl, rfl⟩⟩ rfl rfl
    · intro b' hb
      exact if_neg fun h => hb ((scatter_resultIdx?_iff wf idx e a b' n a b).mp h).2.2
  · intro a' ha
    exact Finset.sum_eq_zero fun b' _ =>
      if_neg fun h => ha ((scatter_resultIdx?_iff wf idx e a' b' n a b).mp h).2.1

/-- A record with the slab scatter's four lists IS slabScatterDims. -/
theorem eq_slabScatterDims (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hiv : d.indexVectorDim = 1) : ∃ wf, d = slabScatterDims N E A B wf := by
  obtain ⟨uw, iw, sd, iv, wf⟩ := d
  simp only at huw hiw hsd hiv
  subst huw hiw hsd hiv
  exact ⟨wf, rfl⟩

/-- The slab scatter-add read at (n, a, b), for ANY record with the slab scatter's four lists. -/
theorem scatterAdd_slabs_apply_of_eq {φ : FTy} (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hiv : d.indexVectorDim = 1) (x : FVec Ideal ⟨3, ![N, A, B]⟩ φ) (idx : IVec ⟨2, ![E, 1]⟩ w)
    (upd : FVec Ideal ⟨3, ![E, A, B]⟩ φ) (n : Fin N) (a : Fin A) (b : Fin B) :
    Host.scatterAdd (F := Ideal) d x idx upd (ix3 n a b)
      = x (ix3 n a b)
        + ∑ e : Fin E, if (idx (ix2 e ⟨0, Nat.one_pos⟩)).toInt = (n.val : Int) then upd (ix3 e a b) else 0 := by
  obtain ⟨wf, rfl⟩ := eq_slabScatterDims d huw hiw hsd hiv
  exact scatterAdd_slabs_apply wf x idx upd n a b

/-! ## The slab gather -/

/-- The dimension numbers of a gather of whole slabs: operand [N, A, B], start indices [E, 1], result
    [E, A, B]; the result's axes 1 and 2 are the offset axes, the operand's axis 0 is collapsed and is the one the
    start index names, there are no batching axes, the index vector lies along axis 1 of the start indices, and a
    slice is one slab, [1, A, B]. Their conditions wf are decided on a program's literal extents. -/
abbrev slabGatherDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT (e, a, b): the operand at slab idx (e, 0), read signed and clamped into
    [0, N − 1], and window coordinates (a, b). (On the slab axis the operand index is the clamped start, the axis
    being collapsed and not a batching one; on each window axis the start is 0 and the offset coordinate is the
    result's coordinate on that axis.) -/
theorem gather_slabs_apply {α : Type} (hN : 0 < N) (wf) (x : (⟨3, ![N, A, B]⟩ : Shape).Idx → α)
    (idx : IVec ⟨2, ![E, 1]⟩ w) (e : Fin E) (a : Fin A) (b : Fin B) :
    Host.gather (slabGatherDims N E A B wf) x idx (ix3 e a b)
      = x (ix3 ⟨min (idx (ix2 e ⟨0, Nat.one_pos⟩)).toInt.toNat (N - 1), by omega⟩ a b) := by
  unfold Host.gather
  congr 1
  funext k
  refine Fin.ext ?_
  match k with
  | ⟨0, _⟩ =>
    show (slabGatherDims N E A B wf).start (ix3 e a b) idx 0 + (slabGatherDims N E A B wf).batchCoord (ix3 e a b) 0
      + (slabGatherDims N E A B wf).offCoord (ix3 e a b) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N E A B wf).startIndexMap from List.mem_singleton.mpr rfl)]
    have hsi : (slabGatherDims N E A B wf).siIdx (ix3 e a b)
        ⟨List.idxOf (0 : Fin 3) (slabGatherDims N E A B wf).startIndexMap,
          List.idxOf_lt_length_iff.2 (List.mem_singleton.mpr rfl)⟩ = ix2 e ⟨0, Nat.one_pos⟩ := by
      funext l; refine Fin.ext ?_
      match l with
      | ⟨0, _⟩ => rfl
      | ⟨1, _⟩ => rfl
    rw [hsi]
    rfl
  | ⟨1, _⟩ =>
    show (slabGatherDims N E A B wf).start (ix3 e a b) idx 1 + (slabGatherDims N E A B wf).batchCoord (ix3 e a b) 1
      + (slabGatherDims N E A B wf).offCoord (ix3 e a b) 1 = a.val
    rw [GatherDims.batchCoord_eq_zero _ _ _ List.not_mem_nil]
    have hs : (slabGatherDims N E A B wf).start (ix3 e a b) idx 1 = 0 := by
      unfold GatherDims.start
      rw [dif_neg (show (1 : Fin 3) ∉ (slabGatherDims N E A B wf).startIndexMap from one_not_mem_zero)]
    have ho : (slabGatherDims N E A B wf).offCoord (ix3 e a b) 1 = a.val := by
      unfold GatherDims.offCoord
      rw [dif_pos (show (1 : Fin 3) ∈ (slabGatherDims N E A B wf).sKept from one_mem_kept_append)]
      rfl
    rw [hs, ho]; omega
  | ⟨2, _⟩ =>
    show (slabGatherDims N E A B wf).start (ix3 e a b) idx 2 + (slabGatherDims N E A B wf).batchCoord (ix3 e a b) 2
      + (slabGatherDims N E A B wf).offCoord (ix3 e a b) 2 = b.val
    rw [GatherDims.batchCoord_eq_zero _ _ _ List.not_mem_nil]
    have hs : (slabGatherDims N E A B wf).start (ix3 e a b) idx 2 = 0 := by
      unfold GatherDims.start
      rw [dif_neg (show (2 : Fin 3) ∉ (slabGatherDims N E A B wf).startIndexMap from two_not_mem_zero)]
    have ho : (slabGatherDims N E A B wf).offCoord (ix3 e a b) 2 = b.val := by
      unfold GatherDims.offCoord
      rw [dif_pos (show (2 : Fin 3) ∈ (slabGatherDims N E A B wf).sKept from two_mem_kept_append)]
      rfl
    rw [hs, ho]; omega

/-- A record with the slab gather's seven fields IS slabGatherDims. -/
theorem eq_slabGatherDims (d : GatherDims ⟨3, ![N, A, B]⟩ ⟨2, ![E, 1]⟩ ⟨3, ![E, A, B]⟩)
    (hod : d.offsetDims = [1, 2]) (hcd : d.collapsedSliceDims = [0]) (hob : d.operandBatchingDims = [])
    (hsb : d.startIndicesBatchingDims = []) (hsm : d.startIndexMap = [0]) (hiv : d.indexVectorDim = 1)
    (hss : d.sliceSizes = ![1, A, B]) : ∃ wf, d = slabGatherDims N E A B wf := by
  obtain ⟨od, cd, ob, sb, sm, iv, ss, wf⟩ := d
  simp only at hod hcd hob hsb hsm hiv hss
  subst hod hcd hob hsb hsm hiv hss
  exact ⟨wf, rfl⟩

/-- The slab gather read at (e, a, b), for ANY record with the slab gather's seven fields. -/
theorem gather_slabs_apply_of_eq {α : Type} (hN : 0 < N)
    (d : GatherDims ⟨3, ![N, A, B]⟩ ⟨2, ![E, 1]⟩ ⟨3, ![E, A, B]⟩)
    (hod : d.offsetDims = [1, 2]) (hcd : d.collapsedSliceDims = [0]) (hob : d.operandBatchingDims = [])
    (hsb : d.startIndicesBatchingDims = []) (hsm : d.startIndexMap = [0]) (hiv : d.indexVectorDim = 1)
    (hss : d.sliceSizes = ![1, A, B]) (x : (⟨3, ![N, A, B]⟩ : Shape).Idx → α) (idx : IVec ⟨2, ![E, 1]⟩ w)
    (e : Fin E) (a : Fin A) (b : Fin B) :
    Host.gather d x idx (ix3 e a b)
      = x (ix3 ⟨min (idx (ix2 e ⟨0, Nat.one_pos⟩)).toInt.toNat (N - 1), by omega⟩ a b) := by
  obtain ⟨wf, rfl⟩ := eq_slabGatherDims d hod hcd hob hsb hsm hiv hss
  exact gather_slabs_apply hN wf x idx e a b

end Cert.LibSlabOps
-- ==== Proof.KernelPrefix.lean ====
/-
  The kernel program's host prefix, read buffer by buffer.

  Before its one device region the kernel program runs 52 host operations on the arguments: it cuts the edge list
  [2, E] into its two rows (the source and the destination endpoint of every edge), wraps negative endpoint numbers
  around (add N where the number is negative), gathers the rows of the node features, of the node positions and the
  slabs of the (transposed) vector features at the endpoints, subtracts the two gathered position arrays, transposes
  the four weight matrices and reshapes the six bias and parameter vectors into one-row matrices. The reference program
  starts with the same operations, on the untransposed vector features.

  This file reads what each buffer that the device region takes holds when the region starts, as a function of the
  arguments, and identifies it with the reference program's value of the same stage:

  * the gathered node features are the reference's gathered node features (kernel_v10);
  * the difference of the gathered positions is the reference's (kernel_v33);
  * the gathered slabs of the transposed vector features are, entry by entry, the reference's gathered slabs with the
    two window coordinates exchanged (kernel_v18_apply), the transposed vector features being the vector features with
    the two window coordinates exchanged (kernel_v11_apply);
  * the destination row of the edge list is the reference's (kernel_v3);
  * each transposed weight matrix read at (k, j) is the weight matrix at (j, k), and each one-row matrix read at
    (0, j) is its vector at j (kernel_v34_apply … kernel_v43_apply).

  How the prefix is read. What a line of operations leaves in a buffer is decided by the last operation that writes
  it: the operations after it do not touch the buffer (after_eq_take), and the ones before it matter only through the
  buffers it reads. So the line is cut at a few positions; pre m c n is the memory after the first n operations,
  kept opaque, and each stretch between two cuts is unfolded on its own, from pre at the stretch's start
  (after_eq_stretch), where the buffers it reads are already known (pre_arg: an argument is written by no
  operation; pre_mono: a buffer keeps its contents over operations that do not write it).
-/
import proofs.«163071_j16887811407945_1_alg».proof.Proof.LaunchKernelIdealP
import proofs.«163071_j16887811407945_1_alg».proof.Proof.Gen.ReferenceIdeal.Read
import Idealize.ShloMosaic.Lib.StableHlo.Run
import Idealize.ShloMosaic.Lib.Pipeline.Value
import Idealize.ShloMosaic.Lib.ValueIdx
import proofs.«163071_j16887811407945_1_alg».proof.Proof.LibSlabOps

noncomputable section

namespace Cert.KernelPrefix

open Idealize.ShloMosaic Idealize.ShloMosaic.TcCoe Idealize.ShloMosaic.ValueIdx
open Idealize.SL Idealize.SL.Sem

/-! ## A line of operations, cut -/

section Generic
variable {τ' : Topo} {sig' : RefSig} {Val : EltTy → Type}

/-- Operations from position n on that do not write b do not change what the line leaves at b. -/
theorem after_eq_take (l : List (HloOp τ' sig' Val)) (n : Nat) (V : Valuation τ' sig' Val) {b : DevRef τ' sig'}
    (h : ∀ op ∈ l.drop n, b ∉ op.writes) : StableHlo.after l V b = StableHlo.after (l.take n) V b := by
  conv_lhs => rw [← List.take_append_drop n l]
  rw [StableHlo.after_append, StableHlo.after_of_forall_not_mem _ _ h]

/-- The first n operations are the first j of them followed by the stretch from j to n. -/
theorem after_take_eq_stretch (l : List (HloOp τ' sig' Val)) (j n : Nat) (hjn : j ≤ n) (V : Valuation τ' sig' Val) :
    StableHlo.after (l.take n) V = StableHlo.after ((l.take n).drop j) (StableHlo.after (l.take j) V) := by
  conv_lhs => rw [← List.take_append_drop j (l.take n)]
  rw [StableHlo.after_append, List.take_take, Nat.min_eq_left hjn]

end Generic

open Cert.KernelIdeal Cert.KernelIdeal.Gen

/-- Closes "none of these operations writes this buffer" over a literal stretch of the prefix: each operation writes its
    own result buffer only, and which reference is which is decided. -/
macro "not_written" : tactic =>
  `(tactic| exact List.forall_iff_forall_mem.mp (by
      simp only [GenP.hostOps0, List.drop_succ_cons, List.drop_zero, List.take_succ_cons, List.take_zero, List.Forall,
        StableHlo.nullary_writes, StableHlo.unary_writes, StableHlo.binary_writes, StableHlo.ternary_writes,
        StableHlo.reshape_writes, Finset.mem_singleton]
      repeat' apply And.intro
      all_goals first | trivial | exact StableHlo.devRef_ne_of_ne (by decide)))

/-- Turns a stretch of the prefix, given by its two cut positions, into the literal list of its operations. -/
macro "stretch_literal" : tactic =>
  `(tactic| simp only [GenP.hostOps0, List.drop_succ_cons, List.drop_zero, List.take_succ_cons, List.take_zero])

variable (m : (ℓ : Loc nD τ sig) → Buf (Elt Ideal) ℓ) (c : Dev nD)

/-- Core c's memory after the first n host operations of the kernel program, from the launch memory m. -/
def pre (n : Nat) : Valuation τ sig (Elt Ideal) :=
  StableHlo.after ((GenP.hostOps0 (F := Ideal)).take n) (fun b => m (c, b))

/-- A buffer that no operation from position n on writes holds, when the region starts, what the stretch from j to n
    left in it. -/
theorem after_eq_stretch (j n : Nat) (hjn : j ≤ n) (b : Ref sig .tc)
    (h : ∀ op ∈ (GenP.hostOps0 (F := Ideal)).drop n, Proc.devRef (τ := τ) .tc b ∉ op.writes) :
    StableHlo.after (GenP.hostOps0 (F := Ideal)) (fun b => m (c, b)) (Proc.devRef .tc b)
      = StableHlo.after (((GenP.hostOps0 (F := Ideal)).take n).drop j) (pre m c j) (Proc.devRef .tc b) := by
  rw [after_eq_take _ n _ h, after_take_eq_stretch _ j n hjn]
  rfl

/-- The memory after n operations is the memory after j of them carried through the stretch from j to n. -/
theorem pre_eq_stretch (j n : Nat) (hjn : j ≤ n) (b : DevRef τ sig) :
    pre m c n b = StableHlo.after (((GenP.hostOps0 (F := Ideal)).take n).drop j) (pre m c j) b := by
  unfold pre
  rw [after_take_eq_stretch _ j n hjn]

/-- A buffer keeps its contents over a stretch that does not write it. -/
theorem pre_mono (j n : Nat) (hjn : j ≤ n) (b : DevRef τ sig)
    (h : ∀ op ∈ ((GenP.hostOps0 (F := Ideal)).take n).drop j, b ∉ op.writes) : pre m c n b = pre m c j b := by
  rw [pre_eq_stretch m c j n hjn, StableHlo.after_of_forall_not_mem _ _ h]

/-- A buffer none of the first n operations writes holds what it held at launch. -/
theorem pre_launch (n : Nat) (b : DevRef τ sig)
    (h : ∀ op ∈ (GenP.hostOps0 (F := Ideal)).take n, b ∉ op.writes) : pre m c n b = m (c, b) := by
  unfold pre
  rw [StableHlo.after_of_forall_not_mem _ _ h]

/-! ## The two rows of the edge list -/

/-- After the first four operations the source row of the edge list is the reference's. -/
theorem pre4_v1 :
    (pre m c 4 (Proc.devRef .tc main_v1) : (⟨1, ![400000]⟩ : Shape).Idx → BitVec 32)
      = Cert.ReferenceIdeal.Read.val_main_v1 (F := Ideal) (m ((c : Thread nD τ).loc main_arg13)) := by
  unfold pre
  stretch_literal
  after_results
  rfl

/-- After the first four operations the destination row of the edge list is the reference's. -/
theorem pre4_v3 :
    (pre m c 4 (Proc.devRef .tc main_v3) : (⟨1, ![400000]⟩ : Shape).Idx → BitVec 32)
      = Cert.ReferenceIdeal.Read.val_main_v3 (F := Ideal) (m ((c : Thread nD τ).loc main_arg13)) := by
  unfold pre
  stretch_literal
  after_results
  rfl

/-- THE DESTINATION ROW of the edge list, when the region starts, is the reference's. -/
theorem kernel_v3 :
    (StableHlo.after (GenP.hostOps0 (F := Ideal)) (fun b => m (c, b)) (Proc.devRef .tc main_v3)
      : (⟨1, ![400000]⟩ : Shape).Idx → BitVec 32)
      = Cert.ReferenceIdeal.Read.val_main_v3 (F := Ideal) (m ((c : Thread nD τ).loc main_arg13)) := by
  rw [after_eq_take _ 4 _ (by not_written)]
  exact pre4_v3 m c

/-! ## The gathered node features -/

/-- THE GATHERED NODE FEATURES, when the region starts, are the reference's: the rows of the node features at the
    source endpoints, negative endpoint numbers wrapped around. -/
theorem kernel_v10 :
    (StableHlo.after (GenP.hostOps0 (F := Ideal)) (fun b => m (c, b)) (Proc.devRef .tc main_v10)
      : (⟨2, ![400000, 128]⟩ : Shape).Idx → EReal)
      = Cert.ReferenceIdeal.Read.val_main_v69 (F := Ideal) (m ((c : Thread nD τ).loc main_arg0))
          (m ((c : Thread nD τ).loc main_arg13)) := by
  rw [after_eq_stretch m c 4 13 (by decide) main_v10 (by not_written)]
  stretch_literal
  after_results
  rw [pre4_v1 m c, pre_launch m c 4 (Proc.devRef .tc main_arg0) (by not_written)]
  rfl

/-! ## The difference of the gathered positions -/

/-- After 32 operations the positions gathered at the source endpoints are the reference's. -/
theorem pre32_v25 :
    (pre m c 32 (Proc.devRef .tc main_v25) : (⟨2, ![400000, 3]⟩ : Shape).Idx → EReal)
      = Cert.ReferenceIdeal.Read.val_main_v17 (F := Ideal) (m ((c : Thread nD τ).loc main_arg2))
          (m ((c : Thread nD τ).loc main_arg13)) := by
  rw [pre_eq_stretch m c 23 32 (by decide)]
  stretch_literal
  after_results
  rw [pre_mono m c 4 23 (by decide) (Proc.devRef .tc main_v1) (by not_written), pre4_v1 m c,
    pre_launch m c 23 (Proc.devRef .tc main_arg2) (by not_written)]
  rfl

/-- THE DIFFERENCE OF THE GATHERED POSITIONS, when the region starts, is the reference's: the position at the
    destination endpoint minus the position at the source endpoint, negative endpoint numbers wrapped around. -/
theorem kernel_v33 :
    (StableHlo.after (GenP.hostOps0 (F := Ideal)) (fun b => m (c, b)) (Proc.devRef .tc main_v33)
      : (⟨2, ![400000, 3]⟩ : Shape).Idx → EReal)
      = Cert.ReferenceIdeal.Read.val_main_v18 (F := Ideal) (m ((c : Thread nD τ).loc main_arg2))
          (m ((c : Thread nD τ).loc main_arg13)) := by
  rw [after_eq_stretch m c 32 42 (by decide) main_v33 (by not_written)]
  stretch_literal
  after_results
  rw [pre_mono m c 4 32 (by decide) (Proc.devRef .tc main_v3) (by not_written), pre4_v3 m c,
    pre_launch m c 32 (Proc.devRef .tc main_arg2) (by not_written), pre32_v25 m c]
  rfl

/-! ## The transposed vector features -/

/-- THE TRANSPOSED VECTOR FEATURES, when the region starts, read at (n, q, k), are the vector features at (n, k, q). -/
theorem kernel_v11_apply (n : Fin 50000) (q : Fin 3) (k : Fin 128) :
    (StableHlo.after (GenP.hostOps0 (F := Ideal)) (fun b => m (c, b)) (Proc.devRef .tc main_v11)
      : (⟨3, ![50000, 3, 128]⟩ : Shape).Idx → EReal) (ix3 n q k)
      = (m ((c : Thread nD τ).loc main_arg1) : (⟨3, ![50000, 128, 3]⟩ : Shape).Idx → EReal) (ix3 n k q) := by
  rw [after_eq_stretch m c 13 14 (by decide) main_v11 (by not_written)]
  stretch_literal
  after_results
  rw [pre_launch m c 13 (Proc.devRef .tc main_arg1) (by not_written)]
  exact transpose_apply [0, 2, 1] _ _ (ix3 n q k) (ix3 n k q) (fun a => match a with
    | ⟨0, _⟩ => rfl
    | ⟨1, _⟩ => rfl
    | ⟨2, _⟩ => rfl)

/-! ## The weights: four transposed matrices, six vectors as one-row matrices -/

/-- The transposed first weight matrix (of the node-feature layer) read at (a, b) is the matrix at (b, a). -/
theorem kernel_v34_apply (a : Fin 128) (b : Fin 128) :
    (StableHlo.after (GenP.hostOps0 (F := Ideal)) (fun b => m (c, b)) (Proc.devRef .tc main_v34)
      : (⟨2, ![128, 128]⟩ : Shape).Idx → EReal) (ix2 a b)
      = (m ((c : Thread nD τ).loc main_arg5) : (⟨2, ![128, 128]⟩ : Shape).Idx → EReal) (ix2 b a) := by
  rw [after_eq_stretch m c 42 43 (by decide) main_v34 (by not_written)]
  stretch_literal
  after_results
  rw [pre_launch m c 42 (Proc.devRef .tc main_arg5) (by not_written)]
  exact transpose_apply [1, 0] _ _ (ix2 a b) (ix2 b a) (fun k => match k with
    | ⟨0, _⟩ => rfl
    | ⟨1, _⟩ => rfl)

/-- The transposed second weight matrix (of the node-feature layer) read at (a, b) is the matrix at (b, a). -/
theorem kernel_v35_apply (a : Fin 128) (b : Fin 384) :
    (StableHlo.after (GenP.hostOps0 (F := Ideal)) (fun b => m (c, b)) (Proc.devRef .tc main_v35)
      : (⟨2, ![128, 384]⟩ : Shape).Idx → EReal) (ix2 a b)
      = (m ((c : Thread nD τ).loc main_arg7) : (⟨2, ![384, 128]⟩ : Shape).Idx → EReal) (ix2 b a) := by
  rw [after_eq_stretch m c 43 44 (by decide) main_v35 (by not_written)]
  stretch_literal
  after_results
  rw [pre_launch m c 43 (Proc.devRef .tc main_arg7) (by not_written)]
  exact transpose_apply [1, 0] _ _ (ix2 a b) (ix2 b a) (fun k => match k with
    | ⟨0, _⟩ => rfl
    | ⟨1, _⟩ => rfl)

/-- The transposed first weight matrix (of the radial layer) read at (a, b) is the matrix at (b, a). -/
theorem kernel_v36_apply (a : Fin 20) (b : Fin 128) :
    (StableHlo.after (GenP.hostOps0 (F := Ideal)) (fun b => m (c, b)) (Proc.devRef .tc main_v36)
      : (⟨2, ![20, 128]⟩ : Shape).Idx → EReal) (ix2 a b)
      = (m ((c : Thread nD τ).loc main_arg9) : (⟨2, ![128, 20]⟩ : Shape).Idx → EReal) (ix2 b a) := by
  rw [after_eq_stretch m c 44 45 (by decide) main_v36 (by not_written)]
  stretch_literal
  after_results
  rw [pre_launch m c 44 (Proc.devRef .tc main_arg9) (by not_written)]
  exact transpose_apply [1, 0] _ _ (ix2 a b) (ix2 b a) (fun k => match k with
    | ⟨0, _⟩ => rfl
    | ⟨1, _⟩ => rfl)

/-- The transposed second weight matrix (of the radial layer) read at (a, b) is the matrix at (b, a). -/
theorem kernel_v37_apply (a : Fin 128) (b : Fin 384) :
    (StableHlo.after (GenP.hostOps0 (F := Ideal)) (fun b => m (c, b)) (Proc.devRef .tc main_v37)
      : (⟨2, ![128, 384]⟩ : Shape).Idx → EReal) (ix2 a b)
      = (m ((c : Thread nD τ).loc main_arg11) : (⟨2, ![384, 128]⟩ : Shape).Idx → EReal) (ix2 b a) := by
  rw [after_eq_stretch m c 45 46 (by decide) main_v37 (by not_written)]
  stretch_literal
  after_results
  rw [pre_launch m c 45 (Proc.devRef .tc main_arg11) (by not_written)]
  exact transpose_apply [1, 0] _ _ (ix2 a b) (ix2 b a) (fun k => match k with
    | ⟨0, _⟩ => rfl
    | ⟨1, _⟩ => rfl)

/-- The first bias vector (of the node-feature layer) as a one-row matrix, read at (0, j), is the vector at j. -/
theorem kernel_v38_apply (j : Fin 128) :
    (StableHlo.after (GenP.hostOps0 (F := Ideal)) (fun b => m (c, b)) (Proc.devRef .tc main_v38)
      : (⟨2, ![1, 128]⟩ : Shape).Idx → EReal) (ix2 (0 : Fin 1) j)
      = (m ((c : Thread nD τ).loc main_arg6) : (⟨1, ![128]⟩ : Shape).Idx → EReal) (ix1 j) := by
  rw [after_eq_stretch m c 46 47 (by decide) main_v38 (by not_written)]
  stretch_literal
  after_results
  rw [pre_launch m c 46 (Proc.devRef .tc main_arg6) (by not_written)]
  exact shapeCast_apply _ _ (ix2 (0 : Fin 1) j) (ix1 j)
    (by rewrite [Shape.rowMajor_val_one, Shape.rowMajor_val_two]; show j.val = 0 * 128 + j.val; omega)

/-- The second bias vector (of the node-feature layer) as a one-row matrix, read at (0, j), is the vector at j. -/
theorem kernel_v39_apply (j : Fin 384) :
    (StableHlo.after (GenP.hostOps0 (F := Ideal)) (fun b => m (c, b)) (Proc.devRef .tc main_v39)
      : (⟨2, ![1, 384]⟩ : Shape).Idx → EReal) (ix2 (0 : Fin 1) j)
      = (m ((c : Thread nD τ).loc main_arg8) : (⟨1, ![384]⟩ : Shape).Idx → EReal) (ix1 j) := by
  rw [after_eq_stretch m c 47 48 (by decide) main_v39 (by not_written)]
  stretch_literal
  after_results
  rw [pre_launch m c 47 (Proc.devRef .tc main_arg8) (by not_written)]
  exact shapeCast_apply _ _ (ix2 (0 : Fin 1) j) (ix1 j)
    (by rewrite [Shape.rowMajor_val_one, Shape.rowMajor_val_two]; show j.val = 0 * 384 + j.val; omega)

/-- The first bias vector (of the radial layer) as a one-row matrix, read at (0, j), is the vector at j. -/
theorem kernel_v40_apply (j : Fin 128) :
    (StableHlo.after (GenP.hostOps0 (F := Ideal)) (fun b => m (c, b)) (Proc.devRef .tc main_v40)
      : (⟨2, ![1, 128]⟩ : Shape).Idx → EReal) (ix2 (0 : Fin 1) j)
      = (m ((c : Thread nD τ).loc main_arg10) : (⟨1, ![128]⟩ : Shape).Idx → EReal) (ix1 j) := by
  rw [after_eq_stretch m c 48 49 (by decide) main_v40 (by not_written)]
  stretch_literal
  after_results
  rw [pre_launch m c 48 (Proc.devRef .tc main_arg10) (by not_written)]
  exact shapeCast_apply _ _ (ix2 (0 : Fin 1) j) (ix1 j)
    (by rewrite [Shape.rowMajor_val_one, Shape.rowMajor_val_two]; show j.val = 0 * 128 + j.val; omega)

/-- The second bias vector (of the radial layer) as a one-row matrix, read at (0, j), is the vector at j. -/
theorem kernel_v41_apply (j : Fin 384) :
    (StableHlo.after (GenP.hostOps0 (F := Ideal)) (fun b => m (c, b)) (Proc.devRef .tc main_v41)
      : (⟨2, ![1, 384]⟩ : Shape).Idx → EReal) (ix2 (0 : Fin 1) j)
      = (m ((c : Thread nD τ).loc main_arg12) : (⟨1, ![384]⟩ : Shape).Idx → EReal) (ix1 j) := by
  rw [after_eq_stretch m c 49 50 (by decide) main_v41 (by not_written)]
  stretch_literal
  after_results
  rw [pre_launch m c 49 (Proc.devRef .tc main_arg12) (by not_written)]
  exact shapeCast_apply _ _ (ix2 (0 : Fin 1) j) (ix1 j)
    (by rewrite [Shape.rowMajor_val_one, Shape.rowMajor_val_two]; show j.val = 0 * 384 + j.val; omega)

/-- The first radial parameter vector as a one-row matrix, read at (0, j), is the vector at j. -/
theorem kernel_v42_apply (j : Fin 20) :
    (StableHlo.after (GenP.hostOps0 (F := Ideal)) (fun b => m (c, b)) (Proc.devRef .tc main_v42)
      : (⟨2, ![1, 20]⟩ : Shape).Idx → EReal) (ix2 (0 : Fin 1) j)
      = (m ((c : Thread nD τ).loc main_arg3) : (⟨1, ![20]⟩ : Shape).Idx → EReal) (ix1 j) := by
  rw [after_eq_stretch m c 50 51 (by decide) main_v42 (by not_written)]
  stretch_literal
  after_results
  rw [pre_launch m c 50 (Proc.devRef .tc main_arg3) (by not_written)]
  exact shapeCast_apply _ _ (ix2 (0 : Fin 1) j) (ix1 j)
    (by rewrite [Shape.rowMajor_val_one, Shape.rowMajor_val_two]; show j.val = 0 * 20 + j.val; omega)

/-- The second radial parameter vector as a one-row matrix, read at (0, j), is the vector at j. -/
theorem kernel_v43_apply (j : Fin 20) :
    (StableHlo.after (GenP.hostOps0 (F := Ideal)) (fun b => m (c, b)) (Proc.devRef .tc main_v43)
      : (⟨2, ![1, 20]⟩ : Shape).Idx → EReal) (ix2 (0 : Fin 1) j)
      = (m ((c : Thread nD τ).loc main_arg4) : (⟨1, ![20]⟩ : Shape).Idx → EReal) (ix1 j) := by
  rw [after_eq_stretch m c 51 52 (by decide) main_v43 (by not_written)]
  stretch_literal
  after_results
  rw [pre_launch m c 51 (Proc.devRef .tc main_arg4) (by not_written)]
  exact shapeCast_apply _ _ (ix2 (0 : Fin 1) j) (ix1 j)
    (by rewrite [Shape.rowMajor_val_one, Shape.rowMajor_val_two]; show j.val = 0 * 20 + j.val; omega)

/-! ## The gathered slabs of the transposed vector features -/

/-- THE GATHERED SLABS OF THE TRANSPOSED VECTOR FEATURES, when the region starts, read at (e, q, k), are the reference's
    gathered slabs of the vector features at (e, k, q). (Both programs gather at the same start indices, the source
    endpoints with negative numbers wrapped around; a gathered slab is the operand's slab at the clamped start index,
    and the kernel's operand is the reference's with the two window coordinates exchanged.) -/
theorem kernel_v18_apply (e : Fin 400000) (q : Fin 3) (k : Fin 128) :
    (StableHlo.after (GenP.hostOps0 (F := Ideal)) (fun b => m (c, b)) (Proc.devRef .tc main_v18)
      : (⟨3, ![400000, 3, 128]⟩ : Shape).Idx → EReal) (ix3 e q k)
      = (Cert.ReferenceIdeal.Read.val_main_v92 (F := Ideal) (m ((c : Thread nD τ).loc main_arg1))
          (m ((c : Thread nD τ).loc main_arg13)) : (⟨3, ![400000, 128, 3]⟩ : Shape).Idx → EReal) (ix3 e k q) := by
  rw [after_eq_stretch m c 13 23 (by decide) main_v18 (by not_written)]
  stretch_literal
  after_results
  rw [pre_mono m c 4 13 (by decide) (Proc.devRef .tc main_v1) (by not_written), pre4_v1 m c,
    pre_launch m c 13 (Proc.devRef .tc main_arg1) (by not_written)]
  -- the kernel's start indices are the reference's, as whole arrays
  show Host.gather _ _ (Cert.ReferenceIdeal.Read.val_main_v91 (F := Ideal) (m ((c : Thread nD τ).loc main_arg13)))
    (ix3 e q k) = _
  unfold Cert.ReferenceIdeal.Read.val_main_v92
  rw [Cert.LibSlabOps.gather_slabs_apply_of_eq (by norm_num)
      gather_S50000x3x128_S400000x1_S400000x3x128_12_0_n_n_0_1_13128 rfl rfl rfl rfl rfl rfl rfl,
    Cert.LibSlabOps.gather_slabs_apply_of_eq (by norm_num)
      Cert.ReferenceIdeal.gather_S50000x128x3_S400000x1_S400000x128x3_12_0_n_n_0_1_11283 rfl rfl rfl rfl rfl rfl rfl]
  exact transpose_apply [0, 2, 1] _ _ _ _ (fun a => match a with
    | ⟨0, _⟩ => rfl
    | ⟨1, _⟩ => rfl
    | ⟨2, _⟩ => rfl)

end Cert.KernelPrefix
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.KernelTail.lean ====
/-
  The kernel program's tail: the two segment sums after the region.

  After the region the kernel program adds each edge's scalar message (row `e` of the region's first result) into row
  `target e` of an array of zeros and adds the scalar features to it, and does the same for the vector messages (the
  region's second result, laid out edge × coordinate × channel), then swaps the last two axes. Read at one index:
  result 0 at `(n, h)` is the scalar feature plus the sum of the messages of the edges whose target is `n`; result 1
  at `(n, h, q)` is the vector feature at `(n, q, h)` plus the sum over those edges of the message at `(e, q, h)`.

  First the two statements about arrays as variables (a broadcast zero, the column of targets, the scatter-add, the
  sum, the swap of axes, each read at an index); then the same about the program's tail, whose operands are the
  buffers as the region leaves them.
-/
import proofs.«163071_j16887811407945_1_alg».proof.Proof.FrameKernelIdealP
import proofs.«163071_j16887811407945_1_alg».proof.Proof.LibRowOps
import proofs.«163071_j16887811407945_1_alg».proof.Proof.LibSlabOps
import Idealize.ShloMosaic.Lib.StableHlo.Run
import Idealize.ShloMosaic.Lib.Pipeline.Value
import Idealize.ShloMosaic.Lib.ValueIdx

set_option maxRecDepth 16384

noncomputable section

open scoped BigOperators

namespace Cert.KernelTail

open Idealize.ShloMosaic Idealize.ShloMosaic.TcCoe Idealize.ShloMosaic.ValueIdx Idealize.SL.Sem Idealize.ShloMosaic.StableHlo
open Cert.KernelIdeal Cert.KernelIdeal.Gen Cert.KernelIdeal.GenP

/-! ## The two sums over arrays as variables -/

/-- The tail's term for result 0, as a function of the three arrays it reads: the scalar features, the flat target
    vector and the scalar messages. -/
def term0 (a0 : (⟨S50000x128, .f32⟩ : BufTy).Contents (Elt Ideal))
    (t : (⟨S400000, .i32⟩ : BufTy).Contents (Elt Ideal)) (u : (⟨S400000x128, .f32⟩ : BufTy).Contents (Elt Ideal)) :
    (⟨S50000x128, .f32⟩ : BufTy).Contents (Elt Ideal) :=
  addf a0 (Host.scatterAdd (F := Ideal) scatter_S50000x128_S400000x1_S400000x128_1_0_0_1
    (broadcastInDim S50000x128 ![] bcast_S_S50000x128 (constant (F := Ideal) S_ .f32 0x00000000#32))
    (broadcastInDim S400000x1 ![0] bcast_S400000_S400000x1_0 t) u)

/-- The tail's term for result 1, as a function of the three arrays it reads: the vector features (coordinate before
    channel), the flat target vector and the vector messages (coordinate before channel). -/
def term1 (a1 : (⟨S50000x3x128, .f32⟩ : BufTy).Contents (Elt Ideal))
    (t : (⟨S400000, .i32⟩ : BufTy).Contents (Elt Ideal)) (u : (⟨S400000x3x128, .f32⟩ : BufTy).Contents (Elt Ideal)) :
    (⟨S50000x128x3, .f32⟩ : BufTy).Contents (Elt Ideal) :=
  transpose S50000x128x3 [0, 2, 1]
    (addf a1 (Host.scatterAdd (F := Ideal) scatter_S50000x3x128_S400000x1_S400000x3x128_12_0_0_1
      (broadcastInDim S50000x3x128 ![] bcast_S_S50000x3x128 (constant (F := Ideal) S_ .f32 0x00000000#32))
      (broadcastInDim S400000x1 ![0] bcast_S400000_S400000x1_0 t) u))
    transposes_S50000x3x128_S50000x128x3_0_2_1

/-- The column of targets read at `(e, 0)` is the flat target vector at `e`. -/
theorem col_apply (t : (⟨S400000, .i32⟩ : BufTy).Contents (Elt Ideal)) (e : Fin 400000) (z : Fin 1) :
    broadcastInDim S400000x1 ![0] bcast_S400000_S400000x1_0 t (ix2 e z) = t (ix1 e) :=
  broadcastInDim_apply _ bcast_S400000_S400000x1_0 t (ix2 e z) (ix1 e) (fun a => match a with
    | ⟨0, _⟩ => by show e.val = if (400000 : Nat) = 1 then 0 else e.val; rw [if_neg (by decide)])

/-- Result 0 at `(n, h)`. -/
theorem seg0_apply (a0 : (⟨S50000x128, .f32⟩ : BufTy).Contents (Elt Ideal))
    (t : (⟨S400000, .i32⟩ : BufTy).Contents (Elt Ideal)) (u : (⟨S400000x128, .f32⟩ : BufTy).Contents (Elt Ideal))
    (n : Fin 50000) (h : Fin 128) :
    term0 a0 t u (ix2 n h)
      = a0 (ix2 n h)
        + (0 + ∑ e : Fin 400000, if (t (ix1 e)).toInt = (n.val : Int) then u (ix2 e h) else 0) := by
  show a0 (ix2 n h) + Host.scatterAdd (F := Ideal) scatter_S50000x128_S400000x1_S400000x128_1_0_0_1 _ _ u (ix2 n h) = _
  rw [Cert.LibRowOps.scatterAdd_rows_apply_of_eq (φ := .f32) scatter_S50000x128_S400000x1_S400000x128_1_0_0_1
      rfl rfl rfl rfl _ _ u n h,
    broadcastInDim_apply _ bcast_S_S50000x128 _ (ix2 n h) ix0 (fun a => a.elim0), constant_apply,
    Ideal.ofBits_zero_f32]
  refine congrArg (_ + ·) (congrArg (0 + ·) (Finset.sum_congr rfl fun e _ => ?_))
  rw [col_apply t e ⟨0, Nat.one_pos⟩]

/-- Result 1 at `(n, h, q)`. -/
theorem seg1_apply (a1 : (⟨S50000x3x128, .f32⟩ : BufTy).Contents (Elt Ideal))
    (t : (⟨S400000, .i32⟩ : BufTy).Contents (Elt Ideal)) (u : (⟨S400000x3x128, .f32⟩ : BufTy).Contents (Elt Ideal))
    (n : Fin 50000) (h : Fin 128) (q : Fin 3) :
    term1 a1 t u (ix3 n h q)
      = a1 (ix3 n q h)
        + (0 + ∑ e : Fin 400000, if (t (ix1 e)).toInt = (n.val : Int) then u (ix3 e q h) else 0) := by
  unfold term1
  rw [transpose_apply [0, 2, 1] _ transposes_S50000x3x128_S50000x128x3_0_2_1 (ix3 n h q) (ix3 n q h) (fun b =>
    match b with
    | ⟨0, _⟩ => rfl
    | ⟨1, _⟩ => rfl
    | ⟨2, _⟩ => rfl)]
  show a1 (ix3 n q h)
    + Host.scatterAdd (F := Ideal) scatter_S50000x3x128_S400000x1_S400000x3x128_12_0_0_1 _ _ u (ix3 n q h) = _
  rw [Cert.LibSlabOps.scatterAdd_slabs_apply_of_eq (φ := .f32) scatter_S50000x3x128_S400000x1_S400000x3x128_12_0_0_1
      rfl rfl rfl rfl _ _ u n q h,
    broadcastInDim_apply _ bcast_S_S50000x3x128 _ (ix3 n q h) ix0 (fun a => a.elim0), constant_apply,
    Ideal.ofBits_zero_f32]
  refine congrArg (_ + ·) (congrArg (0 + ·) (Finset.sum_congr rfl fun e _ => ?_))
  rw [col_apply t e ⟨0, Nat.one_pos⟩]

/-! ## The program's tail -/

variable [Cert.KernelIdeal.Facts]
variable (m : (ℓ : Loc nD τ sig) → Buf (Elt Ideal) ℓ)

/-- The buffers after the region: the host prefix's valuation with each window's array put at its reference. -/
abbrev W (c : Dev nD) : Valuation τ sig (Elt Ideal) :=
  Pipeline.withArrays spec0 c (V0 m c) (fun w => (dats m 0 c).arrAt w (cfgs 0).N)

/-- The scalar features are no window's array: they are as launched. -/
theorem rd_arg0 (c : Dev nD) : W m c (Proc.devRef .tc main_arg0) = m ((c.tc : Thread nD τ).loc main_arg0) :=
  (Pipeline.withArrays_of_ne spec0 c (V0 m c) (fun w => (dats m 0 c).arrAt w (cfgs 0).N) main_arg0
    (by decide)).trans (V_main_arg0 m c)

/-- The flat target vector is no window's array: it is as the host prefix left it. -/
theorem rd_v3 (c : Dev nD) : W m c (Proc.devRef .tc main_v3) = V m c main_v3 :=
  Pipeline.withArrays_of_ne spec0 c (V0 m c) (fun w => (dats m 0 c).arrAt w (cfgs 0).N) main_v3 (by decide)

/-- The vector features (coordinate before channel) are no window's array: they are as the host prefix left them. -/
theorem rd_v11 (c : Dev nD) : W m c (Proc.devRef .tc main_v11) = V m c main_v11 :=
  Pipeline.withArrays_of_ne spec0 c (V0 m c) (fun w => (dats m 0 c).arrAt w (cfgs 0).N) main_v11 (by decide)

/-- The region's first result is window 13's array. -/
theorem rd_w13 (c : Dev nD) : W m c (Proc.devRef .tc main_v44_0) = (dats m 0 c).arrAt 13 cfg0.N :=
  Pipeline.withArrays_arr spec0 launch0.win.arr_inj c (V0 m c) (fun w => (dats m 0 c).arrAt w (cfgs 0).N) 13

/-- The region's second result is window 14's array. -/
theorem rd_w14 (c : Dev nD) : W m c (Proc.devRef .tc main_v44_1) = (dats m 0 c).arrAt 14 cfg0.N :=
  Pipeline.withArrays_arr spec0 launch0.win.arr_inj c (V0 m c) (fun w => (dats m 0 c).arrAt w (cfgs 0).N) 14

/-- Result 0 is the tail's term over the buffers after the region. -/
theorem tail0_after (c : Dev nD) :
    (Pipeline.afterTail₀ cfgs (dats m) 0 (V0 m) [hostOps1] c main_v48 : S50000x128.Idx → EReal)
      = term0 (W m c (Proc.devRef .tc main_arg0)) (W m c (Proc.devRef .tc main_v3))
          (W m c (Proc.devRef .tc main_v44_0)) := by
  unfold Pipeline.afterTail₀
  show StableHlo.after hostOps1 _ (Proc.devRef .tc main_v48) = _
  after_results
  rfl

/-- Result 0 is the tail's term over the scalar features as launched, the flat target vector and the region's first
    result. -/
theorem tail0_term (c : Dev nD) :
    (Pipeline.afterTail₀ cfgs (dats m) 0 (V0 m) [hostOps1] c main_v48 : S50000x128.Idx → EReal)
      = term0 (m ((c.tc : Thread nD τ).loc main_arg0)) (V m c main_v3) ((dats m 0 c).arrAt 13 cfg0.N) :=
  (tail0_after m c).trans (congr (congr (congrArg term0 (rd_arg0 m c)) (rd_v3 m c)) (rd_w13 m c))

/-- RESULT 0 of the kernel program at node `n` and channel `h`; the four arrays are named by variables of literal
    types (instantiate each equation by `rfl`). -/
theorem tail0 (c : Dev nD) (out a0 : S50000x128.Idx → EReal) (t : S400000.Idx → BitVec 32)
    (u : S400000x128.Idx → EReal)
    (hout : out = Pipeline.afterTail₀ cfgs (dats m) 0 (V0 m) [hostOps1] c main_v48)
    (ha0 : a0 = m ((c.tc : Thread nD τ).loc main_arg0)) (ht : t = V m c main_v3)
    (hu : u = (dats m 0 c).arrAt 13 cfg0.N) (n : Fin 50000) (h : Fin 128) :
    out (ix2 n h)
      = a0 (ix2 n h) + (0 + ∑ e : Fin 400000, if (t (ix1 e)).toInt = (n.val : Int) then u (ix2 e h) else 0) := by
  subst hout ha0 ht hu
  rw [tail0_term]
  exact seg0_apply _ _ _ n h

/-- Result 1 is the tail's term over the buffers after the region. -/
theorem tail1_after (c : Dev nD) :
    (Pipeline.afterTail₀ cfgs (dats m) 0 (V0 m) [hostOps1] c main_v53 : S50000x128x3.Idx → EReal)
      = term1 (W m c (Proc.devRef .tc main_v11)) (W m c (Proc.devRef .tc main_v3))
          (W m c (Proc.devRef .tc main_v44_1)) := by
  unfold Pipeline.afterTail₀
  show StableHlo.after hostOps1 _ (Proc.devRef .tc main_v53) = _
  after_results
  rfl

/-- Result 1 is the tail's term over the vector features (coordinate before channel), the flat target vector and the
    region's second result. -/
theorem tail1_term (c : Dev nD) :
    (Pipeline.afterTail₀ cfgs (dats m) 0 (V0 m) [hostOps1] c main_v53 : S50000x128x3.Idx → EReal)
      = term1 (V m c main_v11) (V m c main_v3) ((dats m 0 c).arrAt 14 cfg0.N) :=
  (tail1_after m c).trans (congr (congr (congrArg term1 (rd_v11 m c)) (rd_v3 m c)) (rd_w14 m c))

/-- RESULT 1 of the kernel program at node `n`, channel `h` and coordinate `q`; the four arrays are named by variables
    of literal types (instantiate each equation by `rfl`). -/
theorem tail1 (c : Dev nD) (out : S50000x128x3.Idx → EReal) (a1 : S50000x3x128.Idx → EReal)
    (t : S400000.Idx → BitVec 32) (u : S400000x3x128.Idx → EReal)
    (hout : out = Pipeline.afterTail₀ cfgs (dats m) 0 (V0 m) [hostOps1] c main_v53)
    (ha1 : a1 = V m c main_v11) (ht : t = V m c main_v3)
    (hu : u = (dats m 0 c).arrAt 14 cfg0.N) (n : Fin 50000) (h : Fin 128) (q : Fin 3) :
    out (ix3 n h q)
      = a1 (ix3 n q h)
        + (0 + ∑ e : Fin 400000, if (t (ix1 e)).toInt = (n.val : Int) then u (ix3 e q h) else 0) := by
  subst hout ha1 ht hu
  rw [tail1_term]
  exact seg1_apply _ _ _ n h q

end Cert.KernelTail

end
-- ==== Proof.RefEdge.lean ====
/-
  The reference program read at one edge.

  The reference computes, for every edge `e`, the displacement `r` between the two end points, its clamped
  length, the cosine envelope, twenty Gaussian radial features, two two-layer perceptrons (one of the radial features,
  one of the source node's scalar features), their entrywise product (the gate) and from the gate's three groups of
  128 the scalar and the vector message; the messages are then added into the rows of their target nodes. This file
  reads each of these stages at one index and identifies it with the specification's function of the same name:
  the length with `dist`, the envelope with `envelope`, the radial features with `radial`, the perceptrons with
  `mlp`, their product with `gate`, the two messages with `dS` and `mv`. The three gathers (the displacement's end
  points, the source's scalar row and the source's vector slab) are left as they are: the statements are about the
  arithmetic between the gathers and the scatter-adds. Last, the two results are read at an index as the argument's
  entry plus the sum of the messages of the edges whose target is that node.

  Every stage is proved the same way: the generated reading lemmas are chained outermost first, the composed index
  functions are computed at explicit coordinates (an equation of two functions on at most three axes, axis by axis),
  and what remains is the specification's term.
-/
import proofs.«163071_j16887811407945_1_alg».proof.Proof.Gen.ReferenceIdeal.Read
import proofs.«163071_j16887811407945_1_alg».proof.Proof.Spec
import proofs.«163071_j16887811407945_1_alg».proof.Proof.LibRowScalar
import proofs.«163071_j16887811407945_1_alg».proof.Proof.LibRowOps
import proofs.«163071_j16887811407945_1_alg».proof.Proof.LibSlabOps

noncomputable section

open scoped BigOperators

namespace Cert.RefEdge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal))
  (x1 : (⟨S50000x128x3, .f32⟩ : BufTy).Contents (Elt Ideal))
  (x2 : (⟨S50000x3, .f32⟩ : BufTy).Contents (Elt Ideal))
  (x3 x4 : (⟨S20, .f32⟩ : BufTy).Contents (Elt Ideal))
  (x5 : (⟨S128x128, .f32⟩ : BufTy).Contents (Elt Ideal))
  (x6 : (⟨S128, .f32⟩ : BufTy).Contents (Elt Ideal))
  (x7 : (⟨S384x128, .f32⟩ : BufTy).Contents (Elt Ideal))
  (x8 : (⟨S384, .f32⟩ : BufTy).Contents (Elt Ideal))
  (x9 : (⟨S128x20, .f32⟩ : BufTy).Contents (Elt Ideal))
  (x10 : (⟨S128, .f32⟩ : BufTy).Contents (Elt Ideal))
  (x11 : (⟨S384x128, .f32⟩ : BufTy).Contents (Elt Ideal))
  (x12 : (⟨S384, .f32⟩ : BufTy).Contents (Elt Ideal))
  (x13 : (⟨S2x400000, .i32⟩ : BufTy).Contents (Elt Ideal))

/-! ## The length -/

/-- The sum over the three coordinates reads the squares at `(e, k)`. -/
theorem i_norm (e : Fin 400000) (k : Fin 3) : idx_main_call0_v1 (ix1 e) k = ix2 e k :=
  funext fun a => Fin.ext (by match a with | ⟨0, _⟩ => rfl | ⟨1, _⟩ => rfl)

/-- The clamped length of edge `e`'s displacement. -/
theorem dist_eq (e : Fin 400000) :
    val_main_v21 (F := Ideal) x2 x13 (ix1 e)
      = Painn.dist (fun c => val_main_v18 (F := Ideal) x2 x13 (ix2 e c)) := by
  rw [val_main_v21_apply, val_main_v19_apply, val_main_call0_v1_apply, val_main_v20_apply, val_main_cst_apply,
    val_main_call0_cst_apply]
  simp only [val_main_call0_v0_apply, i_norm, Ideal.ofBits_def, Ideal.ofBits_zero_f32, zero_add]
  rfl

/-! ## The envelope -/

/-- The cosine envelope of edge `e`'s length. -/
theorem envelope_eq (e : Fin 400000) :
    val_main_v48 (F := Ideal) x2 x13 (ix1 e) = Painn.envelope (val_main_v21 (F := Ideal) x2 x13 (ix1 e)) := by
  rw [val_main_v48_apply, val_main_v40_apply, val_main_v47_apply, val_main_v45_apply, val_main_v43_apply,
    val_main_v42_apply, val_main_v38_apply, val_main_v37_apply, val_main_v39_apply, val_main_v41_apply,
    val_main_v44_apply, val_main_v46_apply, val_main_call1_v1_apply, val_main_call1_v0_apply, val_main_cst_3_apply,
    val_main_cst_4_apply, val_main_cst_5_apply, val_main_cst_6_apply, val_main_cst_7_apply, val_main_cst_8_apply]
  rfl

/-! ## The radial features -/

theorem i_len20 (e : Fin 400000) (k : Fin 20) : idx_main_v27 (idx_main_v29 (ix2 e k)) = ix1 e :=
  funext fun a => Fin.ext (by match a with | ⟨0, _⟩ => rfl)

theorem i_cen (e : Fin 400000) (k : Fin 20) : idx_main_v28 (idx_main_v30 (ix2 e k)) = ix1 k :=
  funext fun a => Fin.ext (by match a with | ⟨0, _⟩ => rfl)

theorem i_wid (e : Fin 400000) (k : Fin 20) : idx_main_v33 (idx_main_v34 (ix2 e k)) = ix1 k :=
  funext fun a => Fin.ext (by match a with | ⟨0, _⟩ => rfl)

theorem i_env20 (e : Fin 400000) (k : Fin 20) : idx_main_v49 (idx_main_v50 (ix2 e k)) = ix1 e :=
  funext fun a => Fin.ext (by match a with | ⟨0, _⟩ => rfl)

/-- Radial feature `k` of edge `e`. -/
theorem radial_eq (e : Fin 400000) (k : Fin 20) :
    val_main_v51 (F := Ideal) x2 x3 x4 x13 (ix2 e k)
      = Painn.radial (Painn.argParams x3 x4 x5 x6 x7 x8 x9 x10 x11 x12)
          (val_main_v21 (F := Ideal) x2 x13 (ix1 e)) k := by
  rw [val_main_v51_apply, val_main_v36_apply, val_main_v35_apply, val_main_v34_apply, val_main_v33_apply,
    val_main_v26_apply, val_main_v25_apply, val_main_v32_apply, val_main_v31_apply, val_main_v29_apply,
    val_main_v27_apply, val_main_v30_apply, val_main_v28_apply, val_main_v50_apply, val_main_v49_apply,
    i_len20, i_cen, i_wid, i_env20, envelope_eq]
  rfl

/-! ## The filter perceptron (of the radial features) -/

theorem i_l53 (e : Fin 400000) (j : Fin 128) (k : Fin 20) : lidx_main_v53 (ix2 e j) k = ix2 e k :=
  funext fun a => Fin.ext (by match a with | ⟨0, _⟩ => rfl | ⟨1, _⟩ => rfl)

theorem i_r53 (e : Fin 400000) (j : Fin 128) (k : Fin 20) : idx_main_v52 (ridx_main_v53 (ix2 e j) k) = ix2 j k :=
  funext fun a => Fin.ext (by match a with | ⟨0, _⟩ => rfl | ⟨1, _⟩ => rfl)

theorem i_b55 (e : Fin 400000) (j : Fin 128) : idx_main_v54 (idx_main_v55 (ix2 e j)) = ix1 j :=
  funext fun a => Fin.ext (by match a with | ⟨0, _⟩ => rfl)

/-- The filter perceptron's first layer before the activation: a sum-product with the transposed weights plus the bias. -/
theorem hidden_filter_eq (e : Fin 400000) (j : Fin 128) :
    val_main_v56 (F := Ideal) x2 x3 x4 x9 x10 x13 (ix2 e j)
      = (∑ k : Fin 20, val_main_v51 (F := Ideal) x2 x3 x4 x13 (ix2 e k) * x9 (ix2 j k)) + x10 (ix1 j) := by
  rw [val_main_v56_apply, val_main_v53_apply, val_main_v55_apply, val_main_v54_apply, i_b55]
  simp only [val_main_v52_apply, i_l53, i_r53]
  rfl

/-- The activation, written by the program as `x · (1 / (1 + exp (−x)))`, is `x · logistic x`. -/
theorem silu_filter_eq (e : Fin 400000) (j : Fin 128) :
    val_main_v57 (F := Ideal) x2 x3 x4 x9 x10 x13 (ix2 e j)
      = Painn.silu (val_main_v56 (F := Ideal) x2 x3 x4 x9 x10 x13 (ix2 e j)) := by
  rw [val_main_v57_apply, val_main_call2_v5_apply, val_main_call2_v4_apply, val_main_call2_cst_0_apply,
    val_main_call2_v3_apply, val_main_call2_v2_apply, val_main_call2_cst_apply, val_main_call2_v1_apply,
    val_main_call2_v0_apply]
  simp only [Ideal.ofBits_def, Cert.LibRowScalar.one_word]
  rfl

theorem i_l59 (e : Fin 400000) (q : Fin 384) (j : Fin 128) : lidx_main_v59 (ix2 e q) j = ix2 e j :=
  funext fun a => Fin.ext (by match a with | ⟨0, _⟩ => rfl | ⟨1, _⟩ => rfl)

theorem i_r59 (e : Fin 400000) (q : Fin 384) (j : Fin 128) : idx_main_v58 (ridx_main_v59 (ix2 e q) j) = ix2 q j :=
  funext fun a => Fin.ext (by match a with | ⟨0, _⟩ => rfl | ⟨1, _⟩ => rfl)

theorem i_b61 (e : Fin 400000) (q : Fin 384) : idx_main_v60 (idx_main_v61 (ix2 e q)) = ix1 q :=
  funext fun a => Fin.ext (by match a with | ⟨0, _⟩ => rfl)

/-- The filter perceptron at output `q`. -/
theorem mlp_filter_eq (e : Fin 400000) (q : Fin 384) :
    val_main_v62 (F := Ideal) x2 x3 x4 x9 x10 x11 x12 x13 (ix2 e q)
      = Painn.mlp (fun k => val_main_v51 (F := Ideal) x2 x3 x4 x13 (ix2 e k))
          (Painn.argParams x3 x4 x5 x6 x7 x8 x9 x10 x11 x12).w1 (Painn.argParams x3 x4 x5 x6 x7 x8 x9 x10 x11 x12).b1 (Painn.argParams x3 x4 x5 x6 x7 x8 x9 x10 x11 x12).w2 (Painn.argParams x3 x4 x5 x6 x7 x8 x9 x10 x11 x12).b2 q := by
  rw [val_main_v62_apply, val_main_v59_apply, val_main_v61_apply, val_main_v60_apply, i_b61]
  simp only [val_main_v58_apply, i_l59, i_r59, silu_filter_eq, hidden_filter_eq]
  rfl

/-! ## The scalar perceptron (of the source node's scalar features) -/

theorem i_l71 (e : Fin 400000) (j : Fin 128) (k : Fin 128) : lidx_main_v71 (ix2 e j) k = ix2 e k :=
  funext fun a => Fin.ext (by match a with | ⟨0, _⟩ => rfl | ⟨1, _⟩ => rfl)

theorem i_r71 (e : Fin 400000) (j : Fin 128) (k : Fin 128) : idx_main_v70 (ridx_main_v71 (ix2 e j) k) = ix2 j k :=
  funext fun a => Fin.ext (by match a with | ⟨0, _⟩ => rfl | ⟨1, _⟩ => rfl)

theorem i_b73 (e : Fin 400000) (j : Fin 128) : idx_main_v72 (idx_main_v73 (ix2 e j)) = ix1 j :=
  funext fun a => Fin.ext (by match a with | ⟨0, _⟩ => rfl)

/-- The scalar perceptron's first layer before the activation. -/
theorem hidden_scalar_eq (e : Fin 400000) (j : Fin 128) :
    val_main_v74 (F := Ideal) x0 x5 x6 x13 (ix2 e j)
      = (∑ k : Fin 128, val_main_v69 (F := Ideal) x0 x13 (ix2 e k) * x5 (ix2 j k)) + x6 (ix1 j) := by
  rw [val_main_v74_apply, val_main_v71_apply, val_main_v73_apply, val_main_v72_apply, i_b73]
  simp only [val_main_v70_apply, i_l71, i_r71]
  rfl

/-- Its activation is `x · logistic x` as well. -/
theorem silu_scalar_eq (e : Fin 400000) (j : Fin 128) :
    val_main_v75 (F := Ideal) x0 x5 x6 x13 (ix2 e j)
      = Painn.silu (val_main_v74 (F := Ideal) x0 x5 x6 x13 (ix2 e j)) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply]
  simp only [Ideal.ofBits_def, Cert.LibRowScalar.one_word]
  rfl

theorem i_l77 (e : Fin 400000) (q : Fin 384) (j : Fin 128) : lidx_main_v77 (ix2 e q) j = ix2 e j :=
  funext fun a => Fin.ext (by match a with | ⟨0, _⟩ => rfl | ⟨1, _⟩ => rfl)

theorem i_r77 (e : Fin 400000) (q : Fin 384) (j : Fin 128) : idx_main_v76 (ridx_main_v77 (ix2 e q) j) = ix2 q j :=
  funext fun a => Fin.ext (by match a with | ⟨0, _⟩ => rfl | ⟨1, _⟩ => rfl)

theorem i_b79 (e : Fin 400000) (q : Fin 384) : idx_main_v78 (idx_main_v79 (ix2 e q)) = ix1 q :=
  funext fun a => Fin.ext (by match a with | ⟨0, _⟩ => rfl)

/-- The scalar perceptron at output `q`. -/
theorem mlp_scalar_eq (e : Fin 400000) (q : Fin 384) :
    val_main_v80 (F := Ideal) x0 x5 x6 x7 x8 x13 (ix2 e q)
      = Painn.mlp (fun k => val_main_v69 (F := Ideal) x0 x13 (ix2 e k))
          (Painn.argParams x3 x4 x5 x6 x7 x8 x9 x10 x11 x12).p1 (Painn.argParams x3 x4 x5 x6 x7 x8 x9 x10 x11 x12).pb1 (Painn.argParams x3 x4 x5 x6 x7 x8 x9 x10 x11 x12).p2 (Painn.argParams x3 x4 x5 x6 x7 x8 x9 x10 x11 x12).pb2 q := by
  rw [val_main_v80_apply, val_main_v77_apply, val_main_v79_apply, val_main_v78_apply, i_b79]
  simp only [val_main_v76_apply, i_l77, i_r77, silu_scalar_eq, hidden_scalar_eq]
  rfl

/-! ## The gate and the two messages -/

/-- The gate of edge `e` at output `q`: the product of the two perceptrons. -/
theorem gate_eq (e : Fin 400000) (q : Fin 384) :
    val_main_v81 (F := Ideal) x0 x2 x3 x4 x5 x6 x7 x8 x9 x10 x11 x12 x13 (ix2 e q)
      = Painn.gate (Painn.argParams x3 x4 x5 x6 x7 x8 x9 x10 x11 x12)
          (fun c => val_main_v18 (F := Ideal) x2 x13 (ix2 e c))
          (fun k => val_main_v69 (F := Ideal) x0 x13 (ix2 e k)) q := by
  have hr : (fun k => val_main_v51 (F := Ideal) x2 x3 x4 x13 (ix2 e k))
      = Painn.radial (Painn.argParams x3 x4 x5 x6 x7 x8 x9 x10 x11 x12)
          (Painn.dist (fun c => val_main_v18 (F := Ideal) x2 x13 (ix2 e c))) :=
    funext fun k => by rw [radial_eq x2 x3 x4 x5 x6 x7 x8 x9 x10 x11 x12 x13 e k, dist_eq]
  rw [val_main_v81_apply, mlp_scalar_eq x0 x3 x4 x5 x6 x7 x8 x9 x10 x11 x12 x13 e q,
    mlp_filter_eq x2 x3 x4 x5 x6 x7 x8 x9 x10 x11 x12 x13 e q, hr]
  rfl

theorem i_g0 (e : Fin 400000) (h : Fin 128) : idx_main_v82 (ix2 e h) = ix2 e (Painn.g0 h) :=
  funext fun a => Fin.ext (by match a with | ⟨0, _⟩ => rfl | ⟨1, _⟩ => rfl)

/-- THE SCALAR MESSAGE of edge `e` at channel `h`. -/
theorem ref_dS (e : Fin 400000) (h : Fin 128) :
    val_main_v82 (F := Ideal) x0 x2 x3 x4 x5 x6 x7 x8 x9 x10 x11 x12 x13 (ix2 e h)
      = Painn.dS (Painn.argParams x3 x4 x5 x6 x7 x8 x9 x10 x11 x12)
          (fun c => val_main_v18 (F := Ideal) x2 x13 (ix2 e c))
          (fun k => val_main_v69 (F := Ideal) x0 x13 (ix2 e k)) h := by
  rw [val_main_v82_apply, i_g0, gate_eq]
  rfl

theorem i_g1 (e : Fin 400000) (h : Fin 128) (c : Fin 3) :
    idx_main_v83 (idx_main_v85 (idx_main_v93 (ix3 e h c))) = ix2 e (Painn.g1 h) :=
  funext fun a => Fin.ext (by match a with | ⟨0, _⟩ => rfl | ⟨1, _⟩ => exact Nat.add_comm 128 h.val)

theorem i_g2 (e : Fin 400000) (h : Fin 128) (c : Fin 3) :
    idx_main_v84 (idx_main_v95 (idx_main_v97 (ix3 e h c))) = ix2 e (Painn.g2 h) :=
  funext fun a => Fin.ext (by match a with | ⟨0, _⟩ => rfl | ⟨1, _⟩ => exact Nat.add_comm 256 h.val)

theorem i_unit (e : Fin 400000) (h : Fin 128) (c : Fin 3) : idx_main_v96 (idx_main_v98 (ix3 e h c)) = ix2 e c :=
  funext fun a => Fin.ext (by match a with | ⟨0, _⟩ => rfl | ⟨1, _⟩ => rfl)

theorem i_len3 (e : Fin 400000) (c : Fin 3) : idx_main_v22 (idx_main_v23 (ix2 e c)) = ix1 e :=
  funext fun a => Fin.ext (by match a with | ⟨0, _⟩ => rfl)

/-- THE VECTOR MESSAGE of edge `e` at channel `h` and coordinate `c`. -/
theorem ref_mv (e : Fin 400000) (h : Fin 128) (c : Fin 3) :
    val_main_v100 (F := Ideal) x0 x1 x2 x3 x4 x5 x6 x7 x8 x9 x10 x11 x12 x13 (ix3 e h c)
      = Painn.mv (Painn.argParams x3 x4 x5 x6 x7 x8 x9 x10 x11 x12)
          (fun c => val_main_v18 (F := Ideal) x2 x13 (ix2 e c))
          (fun k => val_main_v69 (F := Ideal) x0 x13 (ix2 e k))
          (fun c h => val_main_v92 (F := Ideal) x1 x13 (ix3 e h c)) c h := by
  rw [val_main_v100_apply, val_main_v94_apply, val_main_v93_apply, val_main_v85_apply, val_main_v83_apply, i_g1,
    val_main_v99_apply, val_main_v97_apply, val_main_v95_apply, val_main_v84_apply, i_g2,
    val_main_v98_apply, val_main_v96_apply, i_unit, val_main_v24_apply, val_main_v23_apply, val_main_v22_apply,
    i_len3, gate_eq, gate_eq, dist_eq]
  rfl

/-! ## The two results -/

/-- THE SCALAR RESULT at node `n` and channel `h`: the argument's entry plus the scalar messages of the edges whose
    target (row 1 of the edge list, read signed) is `n`. -/
theorem ref_out0 (n : Fin 50000) (h : Fin 128) :
    val_main_v104 (F := Ideal) x0 x2 x3 x4 x5 x6 x7 x8 x9 x10 x11 x12 x13 (ix2 n h)
      = x0 (ix2 n h)
        + (0 + ∑ e : Fin 400000,
            if (val_main_v102 (F := Ideal) x13 (ix2 e ⟨0, Nat.one_pos⟩)).toInt = (n.val : Int)
            then val_main_v82 (F := Ideal) x0 x2 x3 x4 x5 x6 x7 x8 x9 x10 x11 x12 x13 (ix2 e h) else 0) := by
  have hs := Cert.LibRowOps.scatterAdd_rows_apply_of_eq (φ := .f32)
    scatter_S50000x128_S400000x1_S400000x128_1_0_0_1 rfl rfl rfl rfl (val_main_v101 (F := Ideal))
    (val_main_v102 (F := Ideal) x13) (val_main_v82 (F := Ideal) x0 x2 x3 x4 x5 x6 x7 x8 x9 x10 x11 x12 x13) n h
  rw [val_main_v101_apply, val_main_cst_13_apply, Ideal.ofBits_def, Ideal.ofBits_zero_f32] at hs
  rw [val_main_v104_apply]
  exact congrArg (fun t => x0 (ix2 n h) + t) hs

/-- THE VECTOR RESULT at node `n`, channel `h` and coordinate `c`: the argument's entry plus the vector messages of
    the edges whose target is `n`. -/
theorem ref_out1 (n : Fin 50000) (h : Fin 128) (c : Fin 3) :
    val_main_v108 (F := Ideal) x0 x1 x2 x3 x4 x5 x6 x7 x8 x9 x10 x11 x12 x13 (ix3 n h c)
      = x1 (ix3 n h c)
        + (0 + ∑ e : Fin 400000,
            if (val_main_v106 (F := Ideal) x13 (ix2 e ⟨0, Nat.one_pos⟩)).toInt = (n.val : Int)
            then val_main_v100 (F := Ideal) x0 x1 x2 x3 x4 x5 x6 x7 x8 x9 x10 x11 x12 x13 (ix3 e h c) else 0) := by
  have hs := Cert.LibSlabOps.scatterAdd_slabs_apply_of_eq (φ := .f32)
    scatter_S50000x128x3_S400000x1_S400000x128x3_12_0_0_1 rfl rfl rfl rfl (val_main_v105 (F := Ideal))
    (val_main_v106 (F := Ideal) x13)
    (val_main_v100 (F := Ideal) x0 x1 x2 x3 x4 x5 x6 x7 x8 x9 x10 x11 x12 x13) n h c
  rw [val_main_v105_apply, val_main_cst_14_apply, Ideal.ofBits_def, Ideal.ofBits_zero_f32] at hs
  rw [val_main_v108_apply]
  exact congrArg (fun t => x1 (ix3 n h c) + t) hs

end Cert.RefEdge

end
-- ==== Proof.RefTail.lean ====
/-
  The reference's two results with the target of an edge read off the edge list itself.

  The scatter-adds take their row numbers from a column array (one row number per edge, as a 400000 × 1 array) that is
  row 1 of the edge list repeated along a unit axis. Read at `(e, 0)` that column is the flat target vector at `e`,
  so the two results are: the argument's entry plus the sum of the messages of the edges whose target, read signed
  from the flat vector, is the node.
-/
import proofs.«163071_j16887811407945_1_alg».proof.Proof.RefEdge

noncomputable section

open scoped BigOperators

namespace Cert.RefEdge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal))
  (x1 : (⟨S50000x128x3, .f32⟩ : BufTy).Contents (Elt Ideal))
  (x2 : (⟨S50000x3, .f32⟩ : BufTy).Contents (Elt Ideal))
  (x3 x4 : (⟨S20, .f32⟩ : BufTy).Contents (Elt Ideal))
  (x5 : (⟨S128x128, .f32⟩ : BufTy).Contents (Elt Ideal))
  (x6 : (⟨S128, .f32⟩ : BufTy).Contents (Elt Ideal))
  (x7 : (⟨S384x128, .f32⟩ : BufTy).Contents (Elt Ideal))
  (x8 : (⟨S384, .f32⟩ : BufTy).Contents (Elt Ideal))
  (x9 : (⟨S128x20, .f32⟩ : BufTy).Contents (Elt Ideal))
  (x10 : (⟨S128, .f32⟩ : BufTy).Contents (Elt Ideal))
  (x11 : (⟨S384x128, .f32⟩ : BufTy).Contents (Elt Ideal))
  (x12 : (⟨S384, .f32⟩ : BufTy).Contents (Elt Ideal))
  (x13 : (⟨S2x400000, .i32⟩ : BufTy).Contents (Elt Ideal))

theorem i_tgt0 (e : Fin 400000) (z : Fin 1) : idx_main_v102 (ix2 e z) = ix1 e :=
  funext fun a => Fin.ext (by match a with | ⟨0, _⟩ => rfl)

theorem i_tgt1 (e : Fin 400000) (z : Fin 1) : idx_main_v106 (ix2 e z) = ix1 e :=
  funext fun a => Fin.ext (by match a with | ⟨0, _⟩ => rfl)

/-- The scalar result, the target read from the flat target vector. -/
theorem ref_out0' (n : Fin 50000) (h : Fin 128) :
    val_main_v104 (F := Ideal) x0 x2 x3 x4 x5 x6 x7 x8 x9 x10 x11 x12 x13 (ix2 n h)
      = x0 (ix2 n h)
        + (0 + ∑ e : Fin 400000,
            if (val_main_v3 (F := Ideal) x13 (ix1 e)).toInt = (n.val : Int)
            then val_main_v82 (F := Ideal) x0 x2 x3 x4 x5 x6 x7 x8 x9 x10 x11 x12 x13 (ix2 e h) else 0) := by
  rw [ref_out0]
  simp only [val_main_v102_apply, i_tgt0]

/-- The vector result, the target read from the flat target vector. -/
theorem ref_out1' (n : Fin 50000) (h : Fin 128) (c : Fin 3) :
    val_main_v108 (F := Ideal) x0 x1 x2 x3 x4 x5 x6 x7 x8 x9 x10 x11 x12 x13 (ix3 n h c)
      = x1 (ix3 n h c)
        + (0 + ∑ e : Fin 400000,
            if (val_main_v3 (F := Ideal) x13 (ix1 e)).toInt = (n.val : Int)
            then val_main_v100 (F := Ideal) x0 x1 x2 x3 x4 x5 x6 x7 x8 x9 x10 x11 x12 x13 (ix3 e h c) else 0) := by
  rw [ref_out1]
  simp only [val_main_v106_apply, i_tgt1]

end Cert.RefEdge

end
-- ==== Proof.Bridge.lean ====
/-
  The kernel's two results are the reference's two results, as functions of the arguments.

  Both programs gather, for every edge, the source node's scalar and vector features and the displacement between the
  two nodes' positions by the same host operations; the kernel's region and the reference's host lines then compute
  the same message of every edge (the specification's `dS` and `mv`, the vector message laid out (edge, coordinate,
  channel) in the kernel and (edge, channel, coordinate) in the reference); and both add, into row `n` of the node
  arrays, the messages of the edges whose destination is `n`, the kernel on the transposed vector array, which it
  transposes back. Entry by entry the two results are therefore the same sums of the same terms.
-/
import proofs.«163071_j16887811407945_1_alg».proof.Proof.KernelBlocks
import proofs.«163071_j16887811407945_1_alg».proof.Proof.KernelPrefix
import proofs.«163071_j16887811407945_1_alg».proof.Proof.KernelTail
import proofs.«163071_j16887811407945_1_alg».proof.Proof.RefEdge
import proofs.«163071_j16887811407945_1_alg».proof.Proof.RefTail

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.GenP Cert.KernelBody Cert.KernelBlocks

variable (m : (ℓ : Loc nD τ sig) → Buf (Elt Ideal) ℓ) (c : Dev nD)

/-! ## The region's inputs are the reference's stages -/

theorem v3_eq : (V m c main_v3 : S400000.Idx → BitVec 32)
    = Cert.ReferenceIdeal.Read.val_main_v3 (F := Ideal) (m ((c : Thread nD τ).loc main_arg13)) :=
  Cert.KernelPrefix.kernel_v3 m c

theorem v10_eq : (V m c main_v10 : S400000x128.Idx → EReal)
    = Cert.ReferenceIdeal.Read.val_main_v69 (F := Ideal) (m ((c : Thread nD τ).loc main_arg0)) (m ((c : Thread nD τ).loc main_arg13)) :=
  Cert.KernelPrefix.kernel_v10 m c

theorem v33_eq : (V m c main_v33 : S400000x3.Idx → EReal)
    = Cert.ReferenceIdeal.Read.val_main_v18 (F := Ideal) (m ((c : Thread nD τ).loc main_arg2)) (m ((c : Thread nD τ).loc main_arg13)) :=
  Cert.KernelPrefix.kernel_v33 m c

theorem v18_apply (e : Fin 400000) (q : Fin 3) (k : Fin 128) :
    (V m c main_v18 : S400000x3x128.Idx → EReal) (ix3 e q k)
      = Cert.ReferenceIdeal.Read.val_main_v92 (F := Ideal) (m ((c : Thread nD τ).loc main_arg1)) (m ((c : Thread nD τ).loc main_arg13)) (ix3 e k q) :=
  Cert.KernelPrefix.kernel_v18_apply m c e q k

theorem v11_apply (n : Fin 50000) (q : Fin 3) (k : Fin 128) :
    (V m c main_v11 : S50000x3x128.Idx → EReal) (ix3 n q k) = (m ((c : Thread nD τ).loc main_arg1)) (ix3 n k q) :=
  Cert.KernelPrefix.kernel_v11_apply m c n q k

/-- The weights the region receives (transposed matrices, one-row biases) are the arguments' weights. -/
theorem params_eq : blockParams (V m c main_v34) (V m c main_v38) (V m c main_v35) (V m c main_v39) (V m c main_v36) (V m c main_v40) (V m c main_v37) (V m c main_v41) (V m c main_v42) (V m c main_v43)
    = Cert.Painn.argParams (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h34 : (fun (k : Fin 128) (j : Fin 128) => (V m c main_v34 : S128x128.Idx → EReal) (ix2 k j))
      = fun k j => (m ((c : Thread nD τ).loc main_arg5)) (ix2 j k) := funext fun k => funext fun j => Cert.KernelPrefix.kernel_v34_apply m c k j
  have h35 : (fun (j : Fin 128) (q : Fin 384) => (V m c main_v35 : S128x384.Idx → EReal) (ix2 j q))
      = fun j q => (m ((c : Thread nD τ).loc main_arg7)) (ix2 q j) := funext fun j => funext fun q => Cert.KernelPrefix.kernel_v35_apply m c j q
  have h36 : (fun (k : Fin 20) (j : Fin 128) => (V m c main_v36 : S20x128.Idx → EReal) (ix2 k j))
      = fun k j => (m ((c : Thread nD τ).loc main_arg9)) (ix2 j k) := funext fun k => funext fun j => Cert.KernelPrefix.kernel_v36_apply m c k j
  have h37 : (fun (j : Fin 128) (q : Fin 384) => (V m c main_v37 : S128x384.Idx → EReal) (ix2 j q))
      = fun j q => (m ((c : Thread nD τ).loc main_arg11)) (ix2 q j) := funext fun j => funext fun q => Cert.KernelPrefix.kernel_v37_apply m c j q
  have h38 : (fun (j : Fin 128) => (V m c main_v38 : S1x128.Idx → EReal) (ix2 (0 : Fin 1) j))
      = fun j => (m ((c : Thread nD τ).loc main_arg6)) (ix1 j) := funext fun j => Cert.KernelPrefix.kernel_v38_apply m c j
  have h39 : (fun (q : Fin 384) => (V m c main_v39 : S1x384.Idx → EReal) (ix2 (0 : Fin 1) q))
      = fun q => (m ((c : Thread nD τ).loc main_arg8)) (ix1 q) := funext fun q => Cert.KernelPrefix.kernel_v39_apply m c q
  have h40 : (fun (j : Fin 128) => (V m c main_v40 : S1x128.Idx → EReal) (ix2 (0 : Fin 1) j))
      = fun j => (m ((c : Thread nD τ).loc main_arg10)) (ix1 j) := funext fun j => Cert.KernelPrefix.kernel_v40_apply m c j
  have h41 : (fun (q : Fin 384) => (V m c main_v41 : S1x384.Idx → EReal) (ix2 (0 : Fin 1) q))
      = fun q => (m ((c : Thread nD τ).loc main_arg12)) (ix1 q) := funext fun q => Cert.KernelPrefix.kernel_v41_apply m c q
  have h42 : (fun (k : Fin 20) => (V m c main_v42 : S1x20.Idx → EReal) (ix2 (0 : Fin 1) k))
      = fun k => (m ((c : Thread nD τ).loc main_arg3)) (ix1 k) := funext fun k => Cert.KernelPrefix.kernel_v42_apply m c k
  have h43 : (fun (k : Fin 20) => (V m c main_v43 : S1x20.Idx → EReal) (ix2 (0 : Fin 1) k))
      = fun k => (m ((c : Thread nD τ).loc main_arg4)) (ix1 k) := funext fun k => Cert.KernelPrefix.kernel_v43_apply m c k
  show Cert.Painn.Params.mk (fun k => (V m c main_v42 : S1x20.Idx → EReal) (ix2 (0 : Fin 1) k))
      (fun k => (V m c main_v43 : S1x20.Idx → EReal) (ix2 (0 : Fin 1) k))
      (fun k j => (V m c main_v36 : S20x128.Idx → EReal) (ix2 k j))
      (fun j => (V m c main_v40 : S1x128.Idx → EReal) (ix2 (0 : Fin 1) j))
      (fun j q => (V m c main_v37 : S128x384.Idx → EReal) (ix2 j q))
      (fun q => (V m c main_v41 : S1x384.Idx → EReal) (ix2 (0 : Fin 1) q))
      (fun k j => (V m c main_v34 : S128x128.Idx → EReal) (ix2 k j))
      (fun j => (V m c main_v38 : S1x128.Idx → EReal) (ix2 (0 : Fin 1) j))
      (fun j q => (V m c main_v35 : S128x384.Idx → EReal) (ix2 j q))
      (fun q => (V m c main_v39 : S1x384.Idx → EReal) (ix2 (0 : Fin 1) q)) = _
  rw [h34, h35, h36, h37, h38, h39, h40, h41, h42, h43]
  rfl

/-! ## The messages of every edge -/

/-- The region's scalar-message array is the reference's scalar-message stage. -/
theorem scalar_eq (e : Fin 400000) (h : Fin 128) :
    ((dats m 0 c).arrAt 13 cfg0.N : S400000x128.Idx → EReal) (ix2 e h)
      = Cert.ReferenceIdeal.Read.val_main_v82 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 e h) := by
  rw [final13 m c, Cert.RefEdge.ref_dS]
  show Cert.Painn.dS (blockParams (V m c main_v34) (V m c main_v38) (V m c main_v35) (V m c main_v39) (V m c main_v36) (V m c main_v40) (V m c main_v37) (V m c main_v41) (V m c main_v42) (V m c main_v43))
      (fun q => (V m c main_v33 : S400000x3.Idx → EReal) (ix2 e q))
      (fun k => (V m c main_v10 : S400000x128.Idx → EReal) (ix2 e k)) h = _
  rw [params_eq m c, v33_eq m c, v10_eq m c]

/-- The region's vector-message array, laid out (edge, coordinate, channel), is the reference's vector-message stage,
    laid out (edge, channel, coordinate). -/
theorem vector_eq (e : Fin 400000) (q : Fin 3) (h : Fin 128) :
    ((dats m 0 c).arrAt 14 cfg0.N : S400000x3x128.Idx → EReal) (ix3 e q h)
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 e h q) := by
  rw [final14 m c, Cert.RefEdge.ref_mv]
  show Cert.Painn.mv (blockParams (V m c main_v34) (V m c main_v38) (V m c main_v35) (V m c main_v39) (V m c main_v36) (V m c main_v40) (V m c main_v37) (V m c main_v41) (V m c main_v42) (V m c main_v43))
      (fun q => (V m c main_v33 : S400000x3.Idx → EReal) (ix2 e q))
      (fun k => (V m c main_v10 : S400000x128.Idx → EReal) (ix2 e k))
      (fun q k => (V m c main_v18 : S400000x3x128.Idx → EReal) (ix3 e q k)) q h = _
  have hv : (fun (q : Fin 3) (k : Fin 128) => (V m c main_v18 : S400000x3x128.Idx → EReal) (ix3 e q k))
      = fun q k => Cert.ReferenceIdeal.Read.val_main_v92 (F := Ideal) (m ((c : Thread nD τ).loc main_arg1)) (m ((c : Thread nD τ).loc main_arg13)) (ix3 e k q) :=
    funext fun q => funext fun k => v18_apply m c e q k
  rw [params_eq m c, v33_eq m c, v10_eq m c, hv]

/-! ## The two results -/

/-- The kernel's first result — the scalar features plus, at each node, the sum of the scalar messages of the edges
    that end there — is the reference's first result. -/
theorem out0_eq : (Pipeline.afterTail₀ cfgs (dats m) 0 (V0 m) [hostOps1] c main_v48 : S50000x128.Idx → EReal)
    = Cert.ReferenceIdeal.Read.val_main_v104 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨n, h, rfl⟩ : ∃ (n : Fin 50000) (h : Fin 128), i = ix2 n h := ⟨i 0, i 1, eq_ix2 i⟩
  rw [Cert.RefEdge.ref_out0']
  refine (Cert.KernelTail.tail0 m c _ _ _ _ rfl rfl rfl rfl n h).trans ?_
  refine congrArg₂ (· + ·) rfl (congrArg (fun s => (0 : EReal) + s) (Finset.sum_congr rfl fun e _ => ?_))
  rw [v3_eq m c, scalar_eq m c e h]

/-- The kernel's second result — the vector features plus the sum of the vector messages, accumulated on the
    (node, coordinate, channel) layout and transposed back — is the reference's second result. -/
theorem out1_eq : (Pipeline.afterTail₀ cfgs (dats m) 0 (V0 m) [hostOps1] c main_v53 : S50000x128x3.Idx → EReal)
    = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨n, h, q, rfl⟩ : ∃ (n : Fin 50000) (h : Fin 128) (q : Fin 3), i = ix3 n h q := ⟨i 0, i 1, i 2, eq_ix3 i⟩
  rw [Cert.RefEdge.ref_out1']
  refine (Cert.KernelTail.tail1 m c _ _ _ _ rfl rfl rfl rfl n h q).trans ?_
  refine congrArg₂ (· + ·) (v11_apply m c n q h) (congrArg (fun s => (0 : EReal) + s) (Finset.sum_congr rfl fun e _ => ?_))
  rw [v3_eq m c, vector_eq m c e q h]

end Cert.Bridge

end
-- ==== Proof.lean ====
/-
  The certificate of the edge-message kernel against its reference.

  The three programs run and leave their arguments unchanged (the kernel's two frame certificates; the reference's
  run with its results dropped). The idealization rewrote nothing, so the kernel is its own idealization. At the ideal
  instance both programs end with the same two arrays: the kernel's results are what its host lines after the region
  compute from the region's output arrays, the reference's are its host lines' composed term, and the two are one
  function of the arguments, entry by entry (`Cert.Bridge.out0_eq`, `Cert.Bridge.out1_eq`): each node's scalar and
  vector features plus the sum of the messages of the edges that end at the node. No finiteness of the inputs is used:
  the two sides apply the same operations to the same numbers, up to the order of two products, `0 − a` for `−a`,
  and layout.
-/
import proofs.«163071_j16887811407945_1_alg».proof.Defs
import proofs.«163071_j16887811407945_1_alg».proof.Proof.Gen.Kernel
import proofs.«163071_j16887811407945_1_alg».proof.Proof.Gen.KernelIdeal
import proofs.«163071_j16887811407945_1_alg».proof.Proof.Gen.ReferenceIdeal
import proofs.«163071_j16887811407945_1_alg».proof.Proof.Gen.ReferenceIdeal.Run
import proofs.«163071_j16887811407945_1_alg».proof.Proof.Gen.ReferenceIdeal.Read
import proofs.«163071_j16887811407945_1_alg».proof.Proof.Gen.Pre_finite_inputs
import proofs.«163071_j16887811407945_1_alg».proof.Proof.FrameKernelP
import proofs.«163071_j16887811407945_1_alg».proof.Proof.FrameKernelIdealP
import proofs.«163071_j16887811407945_1_alg».proof.Proof.KernelRun
import proofs.«163071_j16887811407945_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.GenP.frame m ρ

/-- The idealized kernel runs and keeps its arguments. -/
theorem frame_kernelIdeal : Cert.frame_KernelIdeal := fun m ρ _ => Cert.KernelIdeal.GenP.frame m ρ

/-- The reference runs and keeps its arguments: its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

open Cert.KernelIdeal Cert.KernelIdeal.Gen Cert.KernelIdeal.GenP in
/-- Both idealized programs, from memories that agree on the arguments, end with the same two result arrays. -/
theorem algebraic : Cert.algebraic_KernelIdeal_ReferenceIdeal := by
  intro m ρ m' ρ' _ hagree
  refine ⟨fun c => Pipeline.afterTail₀ cfgs (dats m) 0 (V0 m) [hostOps1] c
      Cert.KernelIdeal.main_v48,
    fun c => Pipeline.afterTail₀ cfgs (dats m) 0 (V0 m) [hostOps1] c
      Cert.KernelIdeal.main_v53,
    Cert.KernelRun.run_results m ρ, ?_⟩
  refine (θ_run Cert.ReferenceIdeal.defs _ _).mono (fun _ h c => ?_)
    (Cert.ReferenceIdeal.Value.run (F := Ideal) m' ρ')
  obtain ⟨h0, h1, hargs⟩ := h c
  obtain ⟨a0, a1, a2, a3, a4, a5, a6, a7, a8, a9, a10, a11, a12, a13⟩ := hagree c
  refine ⟨h0.trans ?_, h1.trans ?_, hargs⟩
  · rw [Cert.ReferenceIdeal.Read.val_main_v104_eq, a0, a2, a3, a4, a5, a6, a7, a8, a9, a10, a11, a12, a13]
    exact (Cert.Bridge.out0_eq m c).symm
  · rw [Cert.ReferenceIdeal.Read.val_main_v108_eq, a0, a1, a2, a3, a4, a5, a6, a7, a8, a9, a10, a11, a12, a13]
    exact (Cert.Bridge.out1_eq m c).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
